-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x10 .f32) (main_arg12 : FVec F S10 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x10 .f32 := Host.absf main_arg11
  let main_cst_16 : FVec F S_ .f32 := constant S_ .f32 0x7F800000#32
  let main_v45 : FVec F S32x10 .f32 := broadcastInDim S32x10 ![] bcast_S_S32x10 main_cst_16
  let main_v46 : IVec S32x10 1 := cmpf .olt main_v44 main_v45
  let main_c_17 : IVec S_ 1 := constantI S_ 1 1#1
  let main_v47 : IVec S_ 1 := (fun x v => Host.reduce IntOp.andi x v reducesTo_S32x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x10 .f32) (main_arg12 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S3200000x64 : Shape := ⟨2, ![3200000, 64]⟩
abbrev S5000x1 : Shape := ⟨2, ![5000, 1]⟩
abbrev S128 : Shape := ⟨1, ![128]⟩
abbrev S128x1 : Shape := ⟨2, ![128, 1]⟩
abbrev S128x10 : Shape := ⟨2, ![128, 10]⟩
abbrev S128x32 : Shape := ⟨2, ![128, 32]⟩
abbrev S1x32 : Shape := ⟨2, ![1, 32]⟩
abbrev S1x10 : Shape := ⟨2, ![1, 10]⟩

abbrev nBuf : Space → Nat
  | .hbm => 108
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S3200000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S3200000, .i32⟩
  | .hbm, ⟨23, _⟩ => ⟨S_, .f32⟩
  | .hbm, ⟨24, _⟩ => ⟨S3200000, .f32⟩
  | .hbm, ⟨25, _⟩ => ⟨S_, .f32⟩
  | .hbm, ⟨26, _⟩ => ⟨S100000, .f32⟩
  | .hbm, ⟨27, _⟩ => ⟨S3200000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000, .f32⟩
  | .hbm, ⟨53, _⟩ => ⟨S3200000, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x64, .f32⟩
  | .hbm, ⟨65, _⟩ => ⟨S3200000x1, .f32⟩
  | .hbm, ⟨66, _⟩ => ⟨S3200000x64, .f32⟩
  | .hbm, ⟨67, _⟩ => ⟨S3200000x64, .f32⟩
  | .hbm, ⟨68, _⟩ => ⟨S_, .f32⟩
  | .hbm, ⟨69, _⟩ => ⟨S100000x64, .f32⟩
  | .hbm, ⟨70, _⟩ => ⟨S3200000x1, .i32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S3200000x64, .f32⟩
  | .hbm, ⟨83, _⟩ => ⟨S3200000x1, .f32⟩
  | .hbm, ⟨84, _⟩ => ⟨S3200000x64, .f32⟩
  | .hbm, ⟨85, _⟩ => ⟨S3200000x64, .f32⟩
  | .hbm, ⟨86, _⟩ => ⟨S_, .f32⟩
  | .hbm, ⟨87, _⟩ => ⟨S100000x64, .f32⟩
  | .hbm, ⟨88, _⟩ => ⟨S3200000x1, .i32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S128x64, .f32⟩
  | .hbm, ⟨93, _⟩ => ⟨S100000x1, .i32⟩
  | .hbm, ⟨94, _⟩ => ⟨S128x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S128, .f32⟩
  | .hbm, ⟨99, _⟩ => ⟨S100000x1, .i32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128x1, .f32⟩
  | .hbm, ⟨105, _⟩ => ⟨S128x64, .f32⟩
  | .hbm, ⟨106, _⟩ => ⟨S128x64, .f32⟩
  | .hbm, ⟨107, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | .local _ .vmem, ⟨34, _⟩ => ⟨S128x64, .f32⟩
  | .local _ .vmem, ⟨35, _⟩ => ⟨S64x32, .f32⟩
  | .local _ .vmem, ⟨36, _⟩ => ⟨S32, .f32⟩
  | .local _ .vmem, ⟨37, _⟩ => ⟨S32x10, .f32⟩
  | .local _ .vmem, ⟨38, _⟩ => ⟨S10, .f32⟩
  | .local _ .vmem, ⟨39, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S128x64_S128x64 : S128x64.ShapeCasts S128x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S128x32 : S1x32.Broadcasts S128x32
  inb_S32x10_S32x10_0_0 : ∀ a, (![0, 0] : Fin 2 → Nat) a + S32x10.size a ≤ S32x10.size a
  h_S32x10 : 0 < S32x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x64.size a ≤ S128x64.size a
  hwx5_0 : ∀ i : grid5.Coords, EltTy.bits .f32 = 32 ∨ (Rect.block (s := S128x64) S128x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32.size a ≤ S32.size a
  hwx5_2 : ∀ i : grid5.Coords, EltTy.bits .f32 = 32 ∨ (Rect.block (s := S32) S32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x10.size a ≤ S32x10.size a
  hwx5_3 : ∀ i : grid5.Coords, EltTy.bits .f32 = 32 ∨ (Rect.block (s := S32x10) S32x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S10.size a ≤ S10.size a
  hwx5_4 : ∀ i : grid5.Coords, EltTy.bits .f32 = 32 ∨ (Rect.block (s := S10) S10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x10.size a ≤ S128x10.size a
  hwx5_5 : ∀ i : grid5.Coords, EltTy.bits .f32 = 32 ∨ (Rect.block (s := S128x10) S128x10.size (cc5_transform_5 i) (hinb5_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v76) S128x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S32x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S128x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S1x64 : Shape := ⟨2, ![1, 64]⟩
abbrev S3200000x64 : Shape := ⟨2, ![3200000, 64]⟩
abbrev S100000x1 : Shape := ⟨2, ![100000, 1]⟩
abbrev S128 : Shape := ⟨1, ![128]⟩
abbrev S128x1 : Shape := ⟨2, ![128, 1]⟩
abbrev S128x32 : Shape := ⟨2, ![128, 32]⟩
abbrev S1x32 : Shape := ⟨2, ![1, 32]⟩
abbrev S128x10 : Shape := ⟨2, ![128, 10]⟩
abbrev S1x10 : Shape := ⟨2, ![1, 10]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S3200000, .i32⟩
  | 18 => ⟨S1x1600000, .i32⟩
  | 19 => ⟨S1600000, .i32⟩
  | 20 => ⟨S1x1600000, .i32⟩
  | 21 => ⟨S1600000, .i32⟩
  | 22 => ⟨S3200000, .i32⟩
  | 23 => ⟨S_, .f32⟩
  | 24 => ⟨S3200000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x64, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000, .f32⟩
  | 59 => ⟨S3200000, .f32⟩
  | 60 => ⟨S3200000x1, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x64, .f32⟩
  | 70 => ⟨S3200000x64, .f32⟩
  | 71 => ⟨S3200000x64, .f32⟩
  | 72 => ⟨S_, .f32⟩
  | 73 => ⟨S100000x64, .f32⟩
  | 74 => ⟨S3200000x1, .i32⟩
  | 75 => ⟨S100000x64, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000, .f32⟩
  | 106 => ⟨S3200000, .f32⟩
  | 107 => ⟨S3200000x1, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x64, .f32⟩
  | 117 => ⟨S3200000x64, .f32⟩
  | 118 => ⟨S3200000x64, .f32⟩
  | 119 => ⟨S_, .f32⟩
  | 120 => ⟨S100000x64, .f32⟩
  | 121 => ⟨S3200000x1, .i32⟩
  | 122 => ⟨S100000x64, .f32⟩
  | 123 => ⟨S100000, .f32⟩
  | 124 => ⟨S100000x1, .f32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S_, .f32⟩
  | 7 => ⟨S128x64, .f32⟩
  | 8 => ⟨S100000x1, .i32⟩
  | 9 => ⟨S128x64, .f32⟩
  | 10 => ⟨S_, .f32⟩
  | 11 => ⟨S100000, .f32⟩
  | 12 => ⟨S_, .f32⟩
  | 13 => ⟨S128, .f32⟩
  | 14 => ⟨S100000x1, .i32⟩
  | 15 => ⟨S128, .f32⟩
  | 16 => ⟨S_, .f32⟩
  | 17 => ⟨S128, .f32⟩
  | 18 => ⟨S128, .f32⟩
  | 19 => ⟨S128x1, .f32⟩
  | 20 => ⟨S128x64, .f32⟩
  | 21 => ⟨S128x64, .f32⟩
  | 22 => ⟨S128x32, .f32⟩
  | 23 => ⟨S1x32, .f32⟩
  | 24 => ⟨S128x32, .f32⟩
  | 25 => ⟨S128x32, .f32⟩
  | 26 => ⟨S_, .f32⟩
  | 27 => ⟨S128x32, .f32⟩
  | 28 => ⟨S128x32, .f32⟩
  | 29 => ⟨S128x10, .f32⟩
  | 30 => ⟨S1x10, .f32⟩
  | 31 => ⟨S128x10, .f32⟩
  | 32 => ⟨S128x10, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x10, .f32⟩
  | 40 => ⟨S128x10, .f32⟩
  | 41 => ⟨S128x10, .f32⟩
  | 42 => ⟨S_, .f32⟩
  | 43 => ⟨S128, .f32⟩
  | 44 => ⟨S128x1, .f32⟩
  | 45 => ⟨S128x1, .f32⟩
  | 46 => ⟨S128x10, .f32⟩
  | 47 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_cst : Ref sig .tc := ⟨.hbm, 37, rfl⟩
abbrev main_call0_v0 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_c_8 : Ref sig .tc := ⟨.hbm, 88, rfl⟩
abbrev main_v61 : Ref sig .tc := ⟨.hbm, 89, rfl⟩
abbrev main_v62 : Ref sig .tc := ⟨.hbm, 90, rfl⟩
abbrev main_c_9 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_10 : Ref sig .tc := ⟨.hbm, 97, rfl⟩
abbrev main_v68 : Ref sig .tc := ⟨.hbm, 98, rfl⟩
abbrev main_v69 : Ref sig .tc := ⟨.hbm, 99, rfl⟩
abbrev main_c_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_12 : Ref sig .tc := ⟨.hbm, 108, rfl⟩
abbrev main_v77 : Ref sig .tc := ⟨.hbm, 109, rfl⟩
abbrev main_v78 : Ref sig .tc := ⟨.hbm, 110, rfl⟩
abbrev main_c_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call2_cst : Ref sig .tc := ⟨.hbm, 131, rfl⟩
abbrev main_call2_v0 : Ref sig .tc := ⟨.hbm, 132, rfl⟩
abbrev main_v97 : Ref sig .tc := ⟨.hbm, 133, rfl⟩
abbrev main_cst_15 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_16 : Ref sig .tc := ⟨.hbm, 138, rfl⟩
abbrev main_v101 : Ref sig .tc := ⟨.hbm, 139, rfl⟩
abbrev main_cst_17 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_18 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_call3_cst : Ref sig .tc := ⟨.hbm, 154, rfl⟩
abbrev main_call3_v0 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call4_cst : Ref sig .tc := ⟨.hbm, 161, rfl⟩
abbrev main_call4_v0 : Ref sig .tc := ⟨.hbm, 162, rfl⟩
abbrev main_call4_cst_0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_cst_1 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_v119 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

class Facts : Prop extends Facts₀ where

variable [Facts]
-- ==== Proof.ValueRun.lean ====
/-
  The idealized kernel's run, with its result named.

  @main is ten segments: four stretches of host operations and six kernel launches. The contents of every buffer at
  each segment boundary are a fold from the launch memory (a host stretch applies its operations; a launch leaves in
  each of its arrays what its write-backs leave and every other buffer alone). Every weakly fair execution ends with
  every unscoped buffer at the last boundary's contents; read at the result buffer that is the result, and read at
  the argument buffers it is the arguments as launched.
-/
import proofs.«137136_j52639119179823_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.ValueRun

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibLayer.lean ====
/-
  The row vocabulary of dense layers over the extended reals.

  A dense layer takes a row x of k numbers to the d numbers  (∑ q, x q · W q c) + b c ; the gated unit is
  silu y = y · (1 / (1 + e^(−y))); two such layers with an entrywise function after each are a two-layer perceptron
  of the row. A layer applied to a matrix acts on each row by itself, so a tile of rows computed alone is the same
  rows of the whole matrix computed at once. `rows`, `mat` and `vec` read an [n, k] array's row, a [k, d] array and
  a length-d array as plain functions of their coordinates.
-/
import Idealize.ShloMosaic.PureOps.Ideal
import Idealize.ShloMosaic.Lib.ValueIdx

noncomputable section

open scoped BigOperators

namespace Cert.Layer

open Idealize.ShloMosaic Idealize.ShloMosaic.ValueIdx

variable {k h d : ℕ}

/-- One output of a dense layer on a row: the row against a column of the weights, plus the bias. -/
def lin (x : Fin k → EReal) (W : Fin k → Fin d → EReal) (b : Fin d → EReal) (c : Fin d) : EReal :=
  (∑ q : Fin k, x q * W q c) + b c

/-- The gated unit y · σ(y), σ the logistic function. -/
def silu (y : EReal) : EReal := y * Ideal.logistic y

/-- Two dense layers on a row with activations `f` after the first and `g` after the second. -/
def mlp (f g : EReal → EReal) (x : Fin k → EReal) (W₁ : Fin k → Fin h → EReal) (b₁ : Fin h → EReal)
    (W₂ : Fin h → Fin d → EReal) (b₂ : Fin d → EReal) (c : Fin d) : EReal :=
  g (lin (fun j => f (lin x W₁ b₁ j)) W₂ b₂ c)

/-- Row `p` of an [n, k] array. -/
def rows {n : ℕ} (X : (⟨2, ![n, k]⟩ : Shape).Idx → EReal) (p : Fin n) : Fin k → EReal := fun q => X (ix2 p q)

/-- A [k, d] array as a matrix of numbers. -/
def mat (W : (⟨2, ![k, d]⟩ : Shape).Idx → EReal) : Fin k → Fin d → EReal := fun q j => W (ix2 q j)

/-- A length-d array as a vector of numbers. -/
def vec (b : (⟨1, ![d]⟩ : Shape).Idx → EReal) : Fin d → EReal := fun j => b (ix1 j)

end Cert.Layer

end
-- ==== Proof.Spec.lean ====
/-
  The network's layers over the extended reals, as functions of whole arrays.

  Three layers act on a node array one row at a time. A dense layer with a rectifier takes row p of X to
  max((∑ q, X (p, q) · W (q, c)) + b c, 0); a matrix product takes it to ∑ q, X (p, q) · W (q, c); and the
  combination step of a graph convolution takes the aggregated neighbour messages A, the node's own projected
  features Y, the node's self-loop weight s (a column, one number per node) and a bias to
  max((A (p, c) + Y (p, c) · s p) + b c, 0). Each entry of a result depends on row p of the row-indexed operands
  only, so a tile of rows computed by itself holds the same rows of the whole result. Stated for any number of rows
  and any inner sizes; `lin`, `rows`, `mat`, `vec` are the row vocabulary of LibLayer.
-/
import proofs.«137136_j52639119179823_1_alg».proof.Proof.LibLayer
import Idealize.ShloMosaic.PureOps.Ideal
import Idealize.ShloMosaic.Lib.ValueIdx

noncomputable section

open scoped BigOperators

namespace Cert.Spec

open Cert.Layer
open Idealize.ShloMosaic Idealize.ShloMosaic.ValueIdx

variable {n k d : ℕ}

/-- An [n, d] array given by its entries. -/
def arr2 (f : Fin n → Fin d → EReal) : (⟨2, ![n, d]⟩ : Shape).Idx → EReal := fun i => f (i 0) (i 1)

theorem arr2_ix2 (f : Fin n → Fin d → EReal) (p : Fin n) (c : Fin d) : arr2 f (ix2 p c) = f p c := rfl

/-- Two [n, d] arrays with the same entries are equal. -/
theorem ext2 {α : Type} {f g : (⟨2, ![n, d]⟩ : Shape).Idx → α} (h : ∀ (p : Fin n) (c : Fin d), f (ix2 p c) = g (ix2 p c)) :
    f = g := funext fun i => by rw [eq_ix2 i]; exact h _ _

/-- A dense layer followed by the rectifier, row by row. -/
def denseRelu (X : (⟨2, ![n, k]⟩ : Shape).Idx → EReal) (W : (⟨2, ![k, d]⟩ : Shape).Idx → EReal)
    (b : (⟨1, ![d]⟩ : Shape).Idx → EReal) : (⟨2, ![n, d]⟩ : Shape).Idx → EReal :=
  arr2 fun p c => max (lin (rows X p) (mat W) (vec b) c) 0

/-- The matrix product X · W. -/
def matProd (X : (⟨2, ![n, k]⟩ : Shape).Idx → EReal) (W : (⟨2, ![k, d]⟩ : Shape).Idx → EReal) :
    (⟨2, ![n, d]⟩ : Shape).Idx → EReal :=
  arr2 fun p c => ∑ q : Fin k, X (ix2 p q) * W (ix2 q c)

/-- The combination step of a graph convolution: aggregated messages, plus the node's own features times its
    self-loop weight, plus the bias, rectified. -/
def combine (A Y : (⟨2, ![n, d]⟩ : Shape).Idx → EReal) (s : (⟨2, ![n, 1]⟩ : Shape).Idx → EReal)
    (b : (⟨1, ![d]⟩ : Shape).Idx → EReal) : (⟨2, ![n, d]⟩ : Shape).Idx → EReal :=
  arr2 fun p c => max ((A (ix2 p c) + Y (ix2 p c) * s (ix2 p 0)) + b (ix1 c)) 0

end Cert.Spec

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«137136_j52639119179823_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.RefStages.lean ====
/-
  The reference's five layer stages, each as the layer function it computes.

  The reference builds its node arrays one whole-array operation at a time: a matrix product, a bias spread
  over the rows, a sum, a maximum with the zero array. Read at entry (p, c), a matrix product is the sum over
  the inner axis q of lhs (p, q) · rhs (q, c); a length-64 bias spread over 100000 rows is the bias at c; the
  node column of self-loop weights spread over 64 columns is the column at (p, 0); and the zero array is the
  word 0x00000000, the number 0. So the first stage is the dense layer with the rectifier,
  max((∑ q, X (p, q) · W (q, c)) + b c, 0); the second and fourth are matrix products of the stage before; the
  third and fifth are the combination max((A (p, c) + Y (p, c) · s (p, 0)) + b c, 0) of the aggregated messages
  A, the projected features Y and the self-loop column s. Nothing is rearranged: each sum is read where it is
  written, and the aggregated messages and the self-loop column stay the arrays the reference computed.
-/
import proofs.«137136_j52639119179823_1_alg».proof.Proof.Gen.ReferenceIdeal.Read
import proofs.«137136_j52639119179823_1_alg».proof.Proof.Spec
import proofs.«137136_j52639119179823_1_alg».proof.Proof.LibPlainDot
import proofs.«137136_j52639119179823_1_alg».proof.Proof.LibLayout

noncomputable section

open scoped BigOperators

namespace Cert.ReferenceIdeal.Stages

open Cert.ReferenceIdeal Cert.ReferenceIdeal.Gen Idealize.ShloMosaic Idealize.ShloMosaic.ValueIdx

/-! The index maps of the stages, at entry (p, c). -/

theorem lidx17 (p : Fin 100000) (c : Fin 64) (k : Fin 128) : Read.lidx_main_v17 (ix2 p c) k = ix2 p k :=
  funext fun a => Fin.ext (by match a with | ⟨0, _⟩ => rfl | ⟨1, _⟩ => rfl)
theorem ridx17 (p : Fin 100000) (c : Fin 64) (k : Fin 128) : Read.ridx_main_v17 (ix2 p c) k = ix2 k c :=
  funext fun a => Fin.ext (by match a with | ⟨0, _⟩ => rfl | ⟨1, _⟩ => rfl)
theorem lidx22 (p : Fin 100000) (c : Fin 64) (k : Fin 64) : Read.lidx_main_v22 (ix2 p c) k = ix2 p k :=
  funext fun a => Fin.ext (by match a with | ⟨0, _⟩ => rfl | ⟨1, _⟩ => rfl)
theorem ridx22 (p : Fin 100000) (c : Fin 64) (k : Fin 64) : Read.ridx_main_v22 (ix2 p c) k = ix2 k c :=
  funext fun a => Fin.ext (by match a with | ⟨0, _⟩ => rfl | ⟨1, _⟩ => rfl)
theorem lidx60 (p : Fin 100000) (c : Fin 64) (k : Fin 64) : Read.lidx_main_v60 (ix2 p c) k = ix2 p k :=
  funext fun a => Fin.ext (by match a with | ⟨0, _⟩ => rfl | ⟨1, _⟩ => rfl)
theorem ridx60 (p : Fin 100000) (c : Fin 64) (k : Fin 64) : Read.ridx_main_v60 (ix2 p c) k = ix2 k c :=
  funext fun a => Fin.ext (by match a with | ⟨0, _⟩ => rfl | ⟨1, _⟩ => rfl)

/-- A bias spread over the rows: the row [1, 64] at (0, c) is the bias at c. -/
theorem bias19 (p : Fin 100000) (c : Fin 64) : Read.idx_main_v18 (Read.idx_main_v19 (ix2 p c)) = ix1 c :=
  funext fun a => Fin.ext (by match a with | ⟨0, _⟩ => rfl)
theorem bias57 (p : Fin 100000) (c : Fin 64) : Read.idx_main_v56 (Read.idx_main_v57 (ix2 p c)) = ix1 c :=
  funext fun a => Fin.ext (by match a with | ⟨0, _⟩ => rfl)
theorem bias95 (p : Fin 100000) (c : Fin 64) : Read.idx_main_v94 (Read.idx_main_v95 (ix2 p c)) = ix1 c :=
  funext fun a => Fin.ext (by match a with | ⟨0, _⟩ => rfl)

/-- The self-loop column spread over 64 columns: at (p, c) it is the column at (p, 0). -/
theorem col53 (p : Fin 100000) (c : Fin 64) : Read.idx_main_v53 (ix2 p c) = ix2 p (0 : Fin 1) :=
  funext fun a => Fin.ext (by match a with | ⟨0, _⟩ => rfl | ⟨1, _⟩ => rfl)
theorem col91 (p : Fin 100000) (c : Fin 64) : Read.idx_main_v91 (ix2 p c) = ix2 p (0 : Fin 1) :=
  funext fun a => Fin.ext (by match a with | ⟨0, _⟩ => rfl | ⟨1, _⟩ => rfl)

/-- Stage one: the dense layer on the node features, rectified. -/
theorem v21_eq (x0 : (⟨S100000x128, .f32⟩ : BufTy).Contents (Elt Ideal)) (x3 : (⟨S128x64, .f32⟩ : BufTy).Contents (Elt Ideal)) (x4 : (⟨S64, .f32⟩ : BufTy).Contents (Elt Ideal)) :
    Read.val_main_v21 (F := Ideal) x0 x3 x4 = Cert.Spec.denseRelu x0 x3 x4 := by
  refine Cert.Spec.ext2 fun p c => ?_
  rw [Read.val_main_v21_apply, Read.val_main_v20_apply, Read.val_main_v17_apply, Read.val_main_v19_apply,
    Read.val_main_v18_apply, Read.val_main_call0_v0_apply, Read.val_main_call0_cst_apply]
  simp only [lidx17, ridx17, bias19, Ideal.addf_def, Ideal.maximumf_def, Ideal.ofBits_def, Ideal.ofBits_zero_f32]
  rfl

/-- Stage two: the first layer's features times the first convolution's weights. -/
theorem v22_eq (x0 : (⟨S100000x128, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    Read.val_main_v22 (F := Ideal) x0 x3 x4 x5 = Cert.Spec.matProd (Read.val_main_v21 (F := Ideal) x0 x3 x4) x5 := by
  refine Cert.Spec.ext2 fun p c => ?_
  rw [Read.val_main_v22_apply]
  simp only [lidx22, ridx22]
  rfl

/-- Stage three: the first convolution's combination step. -/
theorem v59_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    Read.val_main_v59 (F := Ideal) x0 x1 x3 x4 x5 x6
      = Cert.Spec.combine (Read.val_main_v50 (F := Ideal) x0 x1 x3 x4 x5) (Read.val_main_v22 (F := Ideal) x0 x3 x4 x5)
          (Read.val_main_v52 (F := Ideal) x1) x6 := by
  refine Cert.Spec.ext2 fun p c => ?_
  rw [Read.val_main_v59_apply, Read.val_main_v58_apply, Read.val_main_v55_apply, Read.val_main_v54_apply,
    Read.val_main_v53_apply, Read.val_main_v57_apply, Read.val_main_v56_apply, Read.val_main_call1_v0_apply,
    Read.val_main_call1_cst_apply]
  simp only [col53, bias57, Ideal.addf_def, Ideal.mulf_def, Ideal.maximumf_def, Ideal.ofBits_def, Ideal.ofBits_zero_f32]
  rfl

/-- Stage four: the first convolution's features times the second convolution's weights. -/
theorem v60_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    Read.val_main_v60 (F := Ideal) x0 x1 x3 x4 x5 x6 x7
      = Cert.Spec.matProd (Read.val_main_v59 (F := Ideal) x0 x1 x3 x4 x5 x6) x7 := by
  refine Cert.Spec.ext2 fun p c => ?_
  rw [Read.val_main_v60_apply]
  simp only [lidx60, ridx60]
  rfl

/-- Stage five: the second convolution's combination step. -/
theorem v97_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    Read.val_main_v97 (F := Ideal) x0 x1 x3 x4 x5 x6 x7 x8
      = Cert.Spec.combine (Read.val_main_v88 (F := Ideal) x0 x1 x3 x4 x5 x6 x7) (Read.val_main_v60 (F := Ideal) x0 x1 x3 x4 x5 x6 x7)
          (Read.val_main_v90 (F := Ideal) x1) x8 := by
  refine Cert.Spec.ext2 fun p c => ?_
  rw [Read.val_main_v97_apply, Read.val_main_v96_apply, Read.val_main_v93_apply, Read.val_main_v92_apply,
    Read.val_main_v91_apply, Read.val_main_v95_apply, Read.val_main_v94_apply, Read.val_main_call2_v0_apply,
    Read.val_main_call2_cst_apply]
  simp only [col91, bias95, Ideal.addf_def, Ideal.mulf_def, Ideal.maximumf_def, Ideal.ofBits_def, Ideal.ofBits_zero_f32]
  rfl

end Cert.ReferenceIdeal.Stages

end
-- ==== Proof.LibDenseLayers.lean ====
/-
  Dense layers of a tile of rows, read at an entry, over the extended reals.

  Over the extended reals a matrix-unit product into the zero accumulator is the plain sum of products, and a bias — a
  length-d array cast to one row and that row repeated over all rows — reads the same number in every row. So one dense
  layer of an [n, k] tile, at entry (p, c), is  (∑ q, X (p, q) · W (q, c)) + b c : the layer's value on row p alone
  (`dense_apply`, with `bias_apply` for the repeated row); and two such layers with an entrywise function after each are
  the two-layer perceptron of row p (`mlp_apply`: the second layer's input is given entry by entry as f of the first
  layer's output, so a narrowing of the float format in between, the identity here, is absorbed by `rfl`). Stated for any
  number of rows and any inner sizes, over any printed dimension-number records equal to the plain ones; the vocabulary
  (lin, mlp, rows, mat, vec) is LibLayer's.
-/
import proofs.«137136_j52639119179823_1_alg».proof.Proof.LibLayer
import proofs.«137136_j52639119179823_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibDenseLayers

open Cert.Layer
open Idealize.ShloMosaic Idealize.ShloMosaic.ValueIdx

/-! ## One dense layer and two in a row, for any number of rows -/

variable {n k h d : ℕ}

/-- A length-d bias cast to one row and that row repeated over n rows reads, at (p, c), the bias at c. -/
theorem bias_apply (b : (⟨1, ![d]⟩ : Shape).Idx → EReal)
    (h₁ : (⟨1, ![d]⟩ : Shape).ShapeCasts ⟨2, ![1, d]⟩) (h₂ : (⟨2, ![1, d]⟩ : Shape).Broadcasts ⟨2, ![n, d]⟩)
    (p : Fin n) (c : Fin d) :
    broadcastTo ⟨2, ![n, d]⟩ (shapeCast ⟨2, ![1, d]⟩ b h₁) h₂ (ix2 p c) = b (ix1 c) :=
  (broadcastTo_1b_ab_apply _ h₂ p c).trans (shapeCast_a_1a_apply b h₁ 0 c)

/-- One dense layer — a plain product into the zero accumulator, plus the repeated bias row — at (p, c) is the
    layer's value on row p of its input. -/
theorem dense_apply {φ₁ φ₂ : FTy} (D : DotDims ⟨2, ![n, k]⟩ ⟨2, ![k, d]⟩ ⟨2, ![n, d]⟩) (hD : D = DotDims.plain n k d)
    (prec : Option ContractPrecision)
    (X : FVec Ideal ⟨2, ![n, k]⟩ φ₁) (W : FVec Ideal ⟨2, ![k, d]⟩ φ₂) (b : FVec Ideal ⟨1, ![d]⟩ .f32)
    (h₁ : (⟨1, ![d]⟩ : Shape).ShapeCasts ⟨2, ![1, d]⟩) (h₂ : (⟨2, ![1, d]⟩ : Shape).Broadcasts ⟨2, ![n, d]⟩)
    (p : Fin n) (c : Fin d) :
    addf (matmul D prec X W (constant (F := Ideal) ⟨2, ![n, d]⟩ .f32 0x00000000#32))
        (broadcastTo ⟨2, ![n, d]⟩ (shapeCast ⟨2, ![1, d]⟩ b h₁) h₂) (ix2 p c)
      = lin (rows X p) (mat W) (vec b) c := by
  rw [addf_apply, bias_apply]
  exact congrArg (· + b (ix1 c)) (Cert.LibPlainDot.matmul_zero_apply D hD prec X W p c)

/-- Two dense layers in a row: when the second layer's input Y is, entry by entry, f of the first layer's output,
    g of the second layer's output at (p, c) is the two-layer perceptron of row p. -/
theorem mlp_apply {φ₁ φ₂ φ₃ φ₄ : FTy} (f g : EReal → EReal)
    (D₁ : DotDims ⟨2, ![n, k]⟩ ⟨2, ![k, h]⟩ ⟨2, ![n, h]⟩) (hD₁ : D₁ = DotDims.plain n k h)
    (D₂ : DotDims ⟨2, ![n, h]⟩ ⟨2, ![h, d]⟩ ⟨2, ![n, d]⟩) (hD₂ : D₂ = DotDims.plain n h d)
    (prec₁ prec₂ : Option ContractPrecision)
    (X : FVec Ideal ⟨2, ![n, k]⟩ φ₁) (W₁ : FVec Ideal ⟨2, ![k, h]⟩ φ₂) (b₁ : FVec Ideal ⟨1, ![h]⟩ .f32)
    (a₁ : (⟨1, ![h]⟩ : Shape).ShapeCasts ⟨2, ![1, h]⟩) (a₂ : (⟨2, ![1, h]⟩ : Shape).Broadcasts ⟨2, ![n, h]⟩)
    (Y : FVec Ideal ⟨2, ![n, h]⟩ φ₃)
    (hY : ∀ p q, Y (ix2 p q) = f (addf (matmul D₁ prec₁ X W₁ (constant (F := Ideal) ⟨2, ![n, h]⟩ .f32 0x00000000#32))
        (broadcastTo ⟨2, ![n, h]⟩ (shapeCast ⟨2, ![1, h]⟩ b₁ a₁) a₂) (ix2 p q)))
    (W₂ : FVec Ideal ⟨2, ![h, d]⟩ φ₄) (b₂ : FVec Ideal ⟨1, ![d]⟩ .f32)
    (c₁ : (⟨1, ![d]⟩ : Shape).ShapeCasts ⟨2, ![1, d]⟩) (c₂ : (⟨2, ![1, d]⟩ : Shape).Broadcasts ⟨2, ![n, d]⟩)
    (p : Fin n) (c : Fin d) :
    g (addf (matmul D₂ prec₂ Y W₂ (constant (F := Ideal) ⟨2, ![n, d]⟩ .f32 0x00000000#32))
        (broadcastTo ⟨2, ![n, d]⟩ (shapeCast ⟨2, ![1, d]⟩ b₂ c₁) c₂) (ix2 p c))
      = mlp f g (rows X p) (mat W₁) (vec b₁) (mat W₂) (vec b₂) c := by
  rw [dense_apply D₂ hD₂]
  unfold mlp
  refine congrArg (fun x => g (lin x (mat W₂) (vec b₂) c)) (funext fun q => ?_)
  exact (hY p q).trans (congrArg f (dense_apply D₁ hD₁ prec₁ X W₁ b₁ a₁ a₂ p q))

end Cert.LibDenseLayers

end
-- ==== Proof.TileDense.lean ====
/-
  The three row-tiled regions that act on the node array one tile of 5000 rows at a time — the first dense layer with
  its rectifier, and the two matrix products of the graph convolutions — read as functions of whole arrays.

  Each of the twenty grid points takes rows 5000·t … 5000·t + 4999 of the node array, together with the whole weight
  array (and the whole bias), computes the layer on that tile and writes the result back as the same rows of the output
  array. Over the extended reals a change of float format is the identity and a matrix-unit product into the zero
  accumulator is the plain sum of products, so the tile's result is the layer (Spec: `denseRelu`, `matProd`) of the
  tile. Entry (p, c) of either layer depends on row p of the row-indexed operand only, and row y of tile t is row
  5000·t + y of the array; so tile t of the result is tile t of the layer of the whole arrays. Row r lies in tile
  r / 5000, the tiles cover the output array, and the array after the region is the layer of the whole input arrays.
-/
import proofs.«137136_j52639119179823_1_alg».proof.Proof.Gen.KernelIdeal.Frame
import proofs.«137136_j52639119179823_1_alg».proof.Proof.Spec
import proofs.«137136_j52639119179823_1_alg».proof.Proof.LibDenseLayers
import proofs.«137136_j52639119179823_1_alg».proof.Proof.LibPlainDot
import proofs.«137136_j52639119179823_1_alg».proof.Proof.LibLayout
import Idealize.ShloMosaic.Lib.Pipeline.Value
import Idealize.ShloMosaic.Lib.ValueIdx

noncomputable section

open scoped BigOperators

namespace Cert.KernelIdeal.Tile

open Cert.KernelIdeal Cert.KernelIdeal.Gen
open Idealize.ShloMosaic Idealize.ShloMosaic.TcCoe Idealize.ShloMosaic.ValueIdx Idealize.SL.Sem
open Idealize.ShloMosaic.Pipeline (Dat)

/-- The dense layer's dimension numbers are the plain ones: rows × inner times inner × columns. -/
theorem dot0_plain : dot_S5000x128_S128x64_S5000x64_1_0_0_1_n_n = DotDims.plain 5000 128 64 := rfl
theorem dot1_plain : dot_S5000x64_S64x64_S5000x64_1_0_0_1_n_n = DotDims.plain 5000 64 64 := rfl

/-- A tile of 5000 rows through the first layer: the dense layer with the rectifier on those rows. -/
theorem pay0 (a : Vec Ideal S5000x128 .f32) (w : Vec Ideal S128x64 .f32) (b : Vec Ideal S64 .f32) :
    Gen.k0_pay1 (F := Ideal) a w b = Cert.Spec.denseRelu a w b := by
  refine Cert.Spec.ext2 fun p c => ?_
  unfold Gen.k0_pay1
  rw [Cert.Spec.denseRelu, Cert.Spec.arr2_ix2, maximumf_apply, broadcast_apply]
  refine congrArg₂ max ?_ Ideal.ofBits_zero_f32
  exact Cert.LibDenseLayers.dense_apply _ dot0_plain none _ _ b _ _ p c

/-- A tile of 5000 rows through a matrix product: the product on those rows. -/
theorem pay1 (a : Vec Ideal S5000x64 .f32) (w : Vec Ideal S64x64 .f32) :
    Gen.k1_pay1 (F := Ideal) a w = Cert.Spec.matProd a w := by
  refine Cert.Spec.ext2 fun p c => ?_
  unfold Gen.k1_pay1
  rw [Cert.Spec.matProd, Cert.Spec.arr2_ix2, shapeCast_self]
  exact Cert.LibPlainDot.matmul_zero_apply _ dot1_plain none _ _ p c

theorem pay3 (a : Vec Ideal S5000x64 .f32) (w : Vec Ideal S64x64 .f32) :
    Gen.k3_pay1 (F := Ideal) a w = Cert.Spec.matProd a w := by
  refine Cert.Spec.ext2 fun p c => ?_
  unfold Gen.k3_pay1
  rw [Cert.Spec.matProd, Cert.Spec.arr2_ix2, shapeCast_self]
  exact Cert.LibPlainDot.matmul_zero_apply _ dot1_plain none _ _ p c

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Row-wise layers on a tile of rows -/

/-- A dense layer with the rectifier reads row p of its input only: if row p of a tile is row r of the whole array,
    entry (p, c) of the tile's layer is entry (r, c) of the whole array's. -/
theorem denseRelu_rows {n N k d : ℕ} (x : (⟨2, ![n, k]⟩ : Shape).Idx → EReal) (X : (⟨2, ![N, k]⟩ : Shape).Idx → EReal)
    (W : (⟨2, ![k, d]⟩ : Shape).Idx → EReal) (b : (⟨1, ![d]⟩ : Shape).Idx → EReal)
    (j : (⟨2, ![n, d]⟩ : Shape).Idx) (i : (⟨2, ![N, d]⟩ : Shape).Idx) (p : Fin n) (r : Fin N) (c : Fin d)
    (hj : j = ix2 p c) (hi : i = ix2 r c) (hx : ∀ q : Fin k, x (ix2 p q) = X (ix2 r q)) :
    Cert.Spec.denseRelu x W b j = Cert.Spec.denseRelu X W b i := by
  subst hj hi
  rw [Cert.Spec.denseRelu, Cert.Spec.denseRelu, Cert.Spec.arr2_ix2, Cert.Spec.arr2_ix2]
  exact congrArg (fun v => max (Cert.Layer.lin v (Cert.Layer.mat W) (Cert.Layer.vec b) c) 0) (funext hx)

/-- A matrix product reads row p of its left operand only. -/
theorem matProd_rows {n N k d : ℕ} (x : (⟨2, ![n, k]⟩ : Shape).Idx → EReal) (X : (⟨2, ![N, k]⟩ : Shape).Idx → EReal)
    (W : (⟨2, ![k, d]⟩ : Shape).Idx → EReal)
    (j : (⟨2, ![n, d]⟩ : Shape).Idx) (i : (⟨2, ![N, d]⟩ : Shape).Idx) (p : Fin n) (r : Fin N) (c : Fin d)
    (hj : j = ix2 p c) (hi : i = ix2 r c) (hx : ∀ q : Fin k, x (ix2 p q) = X (ix2 r q)) :
    Cert.Spec.matProd x W j = Cert.Spec.matProd X W i := by
  subst hj hi
  rw [Cert.Spec.matProd, Cert.Spec.matProd, Cert.Spec.arr2_ix2, Cert.Spec.arr2_ix2]
  exact Finset.sum_congr rfl fun q _ => congrArg (· * W (ix2 q c)) (hx q)

/-! ## Region 0: the first dense layer, tile by tile -/

/-- What the body leaves in the output tile is the layer of the input tiles. -/
theorem out0_eq (x0 : Vec Ideal S5000x128 .f32) (x1 : Vec Ideal S128x64 .f32) (x2 : Vec Ideal S64 .f32) :
    Gen.out0_3 (F := Ideal) x0 x1 x2 = Cert.Spec.denseRelu x0 x1 x2 := by
  unfold Gen.out0_3
  rw [View.canon_unit_zero hz2]
  simp only [View.ld_unit_zero (S := S5000x128) hz2, View.ld_unit_zero (S := S128x64) hz2, View.ld_unit_zero (S := S64) hz1]
  exact pay0 x0 x1 x2

/-- The printed index maps over the 20 grid points: the row-tiled windows are at tile t, the weights and the bias at
    their one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input tile at point t: its row y is the array's row t·5000 + y. -/
theorem blk0_0 (c : Dev nD) (t : Fin cfg0.N) (y : S5000x128.Idx) (k : S100000x128.Idx)
    (h0 : (k 0).val = t.val * 5000 + (y 0).val) (h1 : (k 1).val = (y 1).val) :
    (Gen.iblk0 V c 0 t : Vec Ideal S5000x128 .f32) y = (V c main_arg0 : S100000x128.Idx → EReal) k := by
  obtain ⟨e0, e1, -⟩ := idx0 t
  unfold Gen.iblk0
  rw [View.read_apply]
  show V c main_arg0 _ = V c main_arg0 _
  refine congrArg _ ?_
  funext a; apply Fin.ext
  match a with
  | ⟨0, _⟩ => show win0_0.index t 0 * 5000 + 1 * (y 0).val = (k 0).val; rw [e0, h0]; omega
  | ⟨1, _⟩ => show win0_0.index t 1 * 128 + 1 * (y 1).val = (k 1).val; rw [e1, h1]; omega

/-- The weights' one block is the weight array. -/
theorem blk0_1 (c : Dev nD) (t : Fin cfg0.N) :
    (Gen.iblk0 V c 1 t : Vec Ideal S128x64 .f32) = (V c main_arg3 : S128x64.Idx → EReal) := by
  obtain ⟨-, -, e2, e3, -⟩ := idx0 t
  unfold Gen.iblk0
  funext y
  rw [View.read_apply]
  show V c main_arg3 _ = V c main_arg3 y
  refine congrArg _ ?_
  funext a; apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- The bias's one block is the bias array. -/
theorem blk0_2 (c : Dev nD) (t : Fin cfg0.N) :
    (Gen.iblk0 V c 2 t : Vec Ideal S64 .f32) = (V c main_arg4 : S64.Idx → EReal) := by
  obtain ⟨-, -, -, -, e4, -⟩ := idx0 t
  unfold Gen.iblk0
  funext y
  rw [View.read_apply]
  show V c main_arg4 _ = V c main_arg4 y
  refine congrArg _ ?_
  funext a; apply Fin.ext
  match a with
  | ⟨0, _⟩ => show win0_2.index t 0 * 64 + 1 * (y 0).val = (y 0).val; rw [e4]; omega

/-- What point t writes back is tile t of the layer of the whole arrays. -/
theorem flushed0 (c : Dev nD) (t : Fin cfg0.N) :
    (Gen.dat0 (F := Ideal) V c).flushed 3 t = ((cfg0.win 3).blk t).view.read (Elt Ideal)
      (Cert.Spec.denseRelu (V c main_arg0 : S100000x128.Idx → EReal) (V c main_arg3 : S128x64.Idx → EReal)
        (V c main_arg4 : S64.Idx → EReal)) := by
  show (cfg0.win 3).cut (grid0.coords t) ((Gen.dat0 V c).after 3 t) = _
  rw [Gen.after0_3, out0_eq, blk0_1, blk0_2]
  obtain ⟨-, -, -, -, -, e5, e6⟩ := idx0 t
  funext j
  have hN : cfg0.N = 20 := N_0
  have ht : t.val < 20 := hN ▸ t.isLt
  have hj0 : (j 0).val < 5000 := (j 0).isLt
  have hj1 : (j 1).val < 64 := (j 1).isLt
  refine denseRelu_rows (Gen.iblk0 V c 0 t) _ _ _ _ _ ⟨(j 0).val, hj0⟩ ⟨t.val * 5000 + (j 0).val, by omega⟩ ⟨(j 1).val, hj1⟩ ?_ ?_ ?_
  · funext a; match a with | ⟨0, _⟩ => rfl | ⟨1, _⟩ => rfl
  · funext a; apply Fin.ext
    match a with
    | ⟨0, _⟩ => show win0_3.index t 0 * 5000 + 1 * (j 0).val = t.val * 5000 + (j 0).val; rw [e5]; omega
    | ⟨1, _⟩ => show win0_3.index t 1 * 64 + 1 * (j 1).val = (j 1).val; rw [e6]; omega
  · intro q
    exact blk0_0 V c t _ _ rfl rfl

/-- An index of the output array is in point t's tile iff each coordinate is in the tile's range on its axis. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v34).slice (win0_3.rect t)).set ↔ _
  rw [View.set_slice_whole, Rect.mem_set_unit]
  exact Iff.rfl

/-- Row r of the output array is in the tile of point r / 5000: the twenty tiles cover the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, e5, e6⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ 0 * 5000 ≤ (i 0).val
      ∧ (i 0).val < win0_3.index ⟨(i 0).val / 5000, ht⟩ 0 * 5000 + 5000
    rw [e5]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val
      ∧ (i 1).val < win0_3.index ⟨(i 0).val / 5000, ht⟩ 1 * 64 + 64
    rw [e6]; omega

/-- After the region the output array is the first dense layer, with the rectifier, of the whole input array. -/
theorem arr0 (c : Dev nD) : (Gen.dat0 (F := Ideal) V c).arrAt 3 cfg0.N
    = Cert.Spec.denseRelu (V c main_arg0 : S100000x128.Idx → EReal) (V c main_arg3 : S128x64.Idx → EReal)
        (V c main_arg4 : S64.Idx → EReal) :=
  (Gen.dat0 (F := Ideal) V c).arrAt_eq_of_cover 3 _ (fun t _ => flushed0 V c t) cover0

/-! ## Region 1: the first layer's matrix product, tile by tile -/

/-- What the body leaves in the output tile is the product of the input tile with the weights. -/
theorem out1_eq (x0 : Vec Ideal S5000x64 .f32) (x1 : Vec Ideal S64x64 .f32) :
    Gen.out1_2 (F := Ideal) x0 x1 = Cert.Spec.matProd x0 x1 := by
  unfold Gen.out1_2
  rw [View.canon_unit_zero hz2]
  simp only [View.ld_unit_zero (S := S5000x64) hz2, View.ld_unit_zero (S := S64x64) hz2]
  exact pay1 x0 x1

/-- The printed index maps over the 20 grid points: the row-tiled windows are at tile t, the weights at their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input tile at point t: its row y is the array's row t·5000 + y. -/
theorem blk1_0 (c : Dev nD) (t : Fin cfg1.N) (y : S5000x64.Idx) (k : S100000x64.Idx)
    (h0 : (k 0).val = t.val * 5000 + (y 0).val) (h1 : (k 1).val = (y 1).val) :
    (Gen.iblk1 V c 0 t : Vec Ideal S5000x64 .f32) y = (V c main_v34 : S100000x64.Idx → EReal) k := by
  obtain ⟨e0, e1, -⟩ := idx1 t
  unfold Gen.iblk1
  rw [View.read_apply]
  show V c main_v34 _ = V c main_v34 _
  refine congrArg _ ?_
  funext a; apply Fin.ext
  match a with
  | ⟨0, _⟩ => show win1_0.index t 0 * 5000 + 1 * (y 0).val = (k 0).val; rw [e0, h0]; omega
  | ⟨1, _⟩ => show win1_0.index t 1 * 64 + 1 * (y 1).val = (k 1).val; rw [e1, h1]; omega

/-- The weights' one block is the weight array. -/
theorem blk1_1 (c : Dev nD) (t : Fin cfg1.N) :
    (Gen.iblk1 V c 1 t : Vec Ideal S64x64 .f32) = (V c main_arg5 : S64x64.Idx → EReal) := by
  obtain ⟨-, -, e2, e3, -⟩ := idx1 t
  unfold Gen.iblk1
  funext y
  rw [View.read_apply]
  show V c main_arg5 _ = V c main_arg5 y
  refine congrArg _ ?_
  funext a; apply Fin.ext
  match a with
  | ⟨0, _⟩ => show win1_1.index t 0 * 64 + 1 * (y 0).val = (y 0).val; rw [e2]; omega
  | ⟨1, _⟩ => show win1_1.index t 1 * 64 + 1 * (y 1).val = (y 1).val; rw [e3]; omega

/-- What point t writes back is tile t of the product of the whole arrays. -/
theorem flushed1 (c : Dev nD) (t : Fin cfg1.N) :
    (Gen.dat1 (F := Ideal) V c).flushed 2 t = ((cfg1.win 2).blk t).view.read (Elt Ideal)
      (Cert.Spec.matProd (V c main_v34 : S100000x64.Idx → EReal) (V c main_arg5 : S64x64.Idx → EReal)) := by
  show (cfg1.win 2).cut (grid1.coords t) ((Gen.dat1 V c).after 2 t) = _
  rw [Gen.after1_2, out1_eq, blk1_1]
  obtain ⟨-, -, -, -, e4, e5⟩ := idx1 t
  funext j
  have hN : cfg1.N = 20 := N_1
  have ht : t.val < 20 := hN ▸ t.isLt
  have hj0 : (j 0).val < 5000 := (j 0).isLt
  have hj1 : (j 1).val < 64 := (j 1).isLt
  refine matProd_rows (Gen.iblk1 V c 0 t) _ _ _ _ ⟨(j 0).val, hj0⟩ ⟨t.val * 5000 + (j 0).val, by omega⟩ ⟨(j 1).val, hj1⟩ ?_ ?_ ?_
  · funext a; match a with | ⟨0, _⟩ => rfl | ⟨1, _⟩ => rfl
  · funext a; apply Fin.ext
    match a with
    | ⟨0, _⟩ => show win1_2.index t 0 * 5000 + 1 * (j 0).val = t.val * 5000 + (j 0).val; rw [e4]; omega
    | ⟨1, _⟩ => show win1_2.index t 1 * 64 + 1 * (j 1).val = (j 1).val; rw [e5]; omega
  · intro q
    exact blk1_0 V c t _ _ rfl rfl

/-- An index of the output array is in point t's tile iff each coordinate is in the tile's range on its axis. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v35).slice (win1_2.rect t)).set ↔ _
  rw [View.set_slice_whole, Rect.mem_set_unit]
  exact Iff.rfl

/-- Row r of the output array is in the tile of point r / 5000: the twenty tiles cover the array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ 0 * 5000 ≤ (i 0).val
      ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 64 ≤ (i 1).val
      ∧ (i 1).val < win1_2.index ⟨(i 0).val / 5000, ht⟩ 1 * 64 + 64
    rw [e5]; omega

/-- After the region the output array is the product of the whole node array with the first layer's weights. -/
theorem arr1 (c : Dev nD) : (Gen.dat1 (F := Ideal) V c).arrAt 2 cfg1.N
    = Cert.Spec.matProd (V c main_v34 : S100000x64.Idx → EReal) (V c main_arg5 : S64x64.Idx → EReal) :=
  (Gen.dat1 (F := Ideal) V c).arrAt_eq_of_cover 2 _ (fun t _ => flushed1 V c t) cover1

/-! ## Region 3: the second layer's matrix product, tile by tile -/

/-- What the body leaves in the output tile is the product of the input tile with the weights. -/
theorem out3_eq (x0 : Vec Ideal S5000x64 .f32) (x1 : Vec Ideal S64x64 .f32) :
    Gen.out3_2 (F := Ideal) x0 x1 = Cert.Spec.matProd x0 x1 := by
  unfold Gen.out3_2
  rw [View.canon_unit_zero hz2]
  simp only [View.ld_unit_zero (S := S5000x64) hz2, View.ld_unit_zero (S := S64x64) hz2]
  exact pay3 x0 x1

/-- The printed index maps over the 20 grid points: the row-tiled windows are at tile t, the weights at their one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input tile at point t: its row y is the array's row t·5000 + y. -/
theorem blk3_0 (c : Dev nD) (t : Fin cfg3.N) (y : S5000x64.Idx) (k : S100000x64.Idx)
    (h0 : (k 0).val = t.val * 5000 + (y 0).val) (h1 : (k 1).val = (y 1).val) :
    (Gen.iblk3 V c 0 t : Vec Ideal S5000x64 .f32) y = (V c main_v49 : S100000x64.Idx → EReal) k := by
  obtain ⟨e0, e1, -⟩ := idx3 t
  unfold Gen.iblk3
  rw [View.read_apply]
  show V c main_v49 _ = V c main_v49 _
  refine congrArg _ ?_
  funext a; apply Fin.ext
  match a with
  | ⟨0, _⟩ => show win3_0.index t 0 * 5000 + 1 * (y 0).val = (k 0).val; rw [e0, h0]; omega
  | ⟨1, _⟩ => show win3_0.index t 1 * 64 + 1 * (y 1).val = (k 1).val; rw [e1, h1]; omega

/-- The weights' one block is the weight array. -/
theorem blk3_1 (c : Dev nD) (t : Fin cfg3.N) :
    (Gen.iblk3 V c 1 t : Vec Ideal S64x64 .f32) = (V c main_arg7 : S64x64.Idx → EReal) := by
  obtain ⟨-, -, e2, e3, -⟩ := idx3 t
  unfold Gen.iblk3
  funext y
  rw [View.read_apply]
  show V c main_arg7 _ = V c main_arg7 y
  refine congrArg _ ?_
  funext a; apply Fin.ext
  match a with
  | ⟨0, _⟩ => show win3_1.index t 0 * 64 + 1 * (y 0).val = (y 0).val; rw [e2]; omega
  | ⟨1, _⟩ => show win3_1.index t 1 * 64 + 1 * (y 1).val = (y 1).val; rw [e3]; omega

/-- What point t writes back is tile t of the product of the whole arrays. -/
theorem flushed3 (c : Dev nD) (t : Fin cfg3.N) :
    (Gen.dat3 (F := Ideal) V c).flushed 2 t = ((cfg3.win 2).blk t).view.read (Elt Ideal)
      (Cert.Spec.matProd (V c main_v49 : S100000x64.Idx → EReal) (V c main_arg7 : S64x64.Idx → EReal)) := by
  show (cfg3.win 2).cut (grid3.coords t) ((Gen.dat3 V c).after 2 t) = _
  rw [Gen.after3_2, out3_eq, blk3_1]
  obtain ⟨-, -, -, -, e4, e5⟩ := idx3 t
  funext j
  have hN : cfg3.N = 20 := N_3
  have ht : t.val < 20 := hN ▸ t.isLt
  have hj0 : (j 0).val < 5000 := (j 0).isLt
  have hj1 : (j 1).val < 64 := (j 1).isLt
  refine matProd_rows (Gen.iblk3 V c 0 t) _ _ _ _ ⟨(j 0).val, hj0⟩ ⟨t.val * 5000 + (j 0).val, by omega⟩ ⟨(j 1).val, hj1⟩ ?_ ?_ ?_
  · funext a; match a with | ⟨0, _⟩ => rfl | ⟨1, _⟩ => rfl
  · funext a; apply Fin.ext
    match a with
    | ⟨0, _⟩ => show win3_2.index t 0 * 5000 + 1 * (j 0).val = t.val * 5000 + (j 0).val; rw [e4]; omega
    | ⟨1, _⟩ => show win3_2.index t 1 * 64 + 1 * (j 1).val = (j 1).val; rw [e5]; omega
  · intro q
    exact blk3_0 V c t _ _ rfl rfl

/-- An index of the output array is in point t's tile iff each coordinate is in the tile's range on its axis. -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v50).slice (win3_2.rect t)).set ↔ _
  rw [View.set_slice_whole, Rect.mem_set_unit]
  exact Iff.rfl

/-- Row r of the output array is in the tile of point r / 5000: the twenty tiles cover the array. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ 0 * 5000 ≤ (i 0).val
      ∧ (i 0).val < win3_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ 1 * 64 ≤ (i 1).val
      ∧ (i 1).val < win3_2.index ⟨(i 0).val / 5000, ht⟩ 1 * 64 + 64
    rw [e5]; omega

/-- After the region the output array is the product of the whole node array with the second layer's weights. -/
theorem arr3 (c : Dev nD) : (Gen.dat3 (F := Ideal) V c).arrAt 2 cfg3.N
    = Cert.Spec.matProd (V c main_v49 : S100000x64.Idx → EReal) (V c main_arg7 : S64x64.Idx → EReal) :=
  (Gen.dat3 (F := Ideal) V c).arrAt_eq_of_cover 2 _ (fun t _ => flushed3 V c t) cover3

end Cert.KernelIdeal.Tile

end
-- ==== Proof.TileCombine.lean ====
/-
  The combination step of a graph convolution, from row tiles to whole arrays.

  The step takes the aggregated neighbour messages A, the node's own projected features Y (both [100000, 64]), the
  column s of self-loop weights ([100000, 1]) and a bias b ([64]) to max((A (p, c) + Y (p, c) · s p) + b c, 0). The
  program computes it twenty times on tiles of 5000 rows: tile t reads rows 5000·t … 5000·t + 4999 of A, Y and s and
  the whole bias, and writes the same rows of the result. Entry (p, c) of the step depends on row p of its row-indexed
  operands only, so the tile's result is the same rows of the step on the whole arrays; the twenty tiles cover every
  row (row r lies in tile r / 5000), so the result array ends holding the step of the whole arrays.
-/
import proofs.«137136_j52639119179823_1_alg».proof.Proof.Gen.KernelIdeal.Frame
import proofs.«137136_j52639119179823_1_alg».proof.Proof.Spec
import proofs.«137136_j52639119179823_1_alg».proof.Proof.LibLayout
import proofs.«137136_j52639119179823_1_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Tile

open Cert.KernelIdeal Cert.KernelIdeal.Gen

variable (V : (c : Dev nD) → (b : Ref sig .tc) → Buf (Elt Ideal) ((c : Thread nD τ).loc b))

/-! ## The tile's arithmetic -/

/-- The first combination kernel's arithmetic on a tile is the combination step of the tile's rows: the products with
    the self-loop column repeated along the rows, the sum with the bias row repeated over the rows, the maximum with
    the zero word. -/
theorem cmb_pay2 (a y : Vec Ideal S5000x64 .f32) (s : Vec Ideal S5000x1 .f32) (b : Vec Ideal S64 .f32) :
    Gen.k2_pay1 (F := Ideal) a y s b = Cert.Spec.combine a y s b := by
  refine Cert.Spec.ext2 fun p c => ?_
  unfold Gen.k2_pay1 Cert.Spec.combine
  rw [Cert.Spec.arr2_ix2, maximumf_apply, addf_apply, addf_apply, mulf_apply, shapeCast_self, shapeCast_self, shapeCast_self,
    Cert.LibDenseLayers.bias_apply, Cert.LibLayout.broadcastTo_a1_ab_apply, broadcast_apply]
  exact congrArg (max _) Ideal.ofBits_zero_f32

/-- The second combination kernel's arithmetic is the same. -/
theorem cmb_pay4 (a y : Vec Ideal S5000x64 .f32) (s : Vec Ideal S5000x1 .f32) (b : Vec Ideal S64 .f32) :
    Gen.k4_pay1 (F := Ideal) a y s b = Cert.Spec.combine a y s b := by
  refine Cert.Spec.ext2 fun p c => ?_
  unfold Gen.k4_pay1 Cert.Spec.combine
  rw [Cert.Spec.arr2_ix2, maximumf_apply, addf_apply, addf_apply, mulf_apply, shapeCast_self, shapeCast_self, shapeCast_self,
    Cert.LibDenseLayers.bias_apply, Cert.LibLayout.broadcastTo_a1_ab_apply, broadcast_apply]
  exact congrArg (max _) Ideal.ofBits_zero_f32

/-- A tile whose rows are rows 5000·k … 5000·k + 4999 of the whole arrays, with the whole bias: its combination step
    at row y is the whole arrays' at row 5000·k + y, because entry (p, c) of the step reads row p only. -/
theorem cmb_tile (A Y : S100000x64.Idx → EReal) (S : S100000x1.Idx → EReal) (B : S64.Idx → EReal)
    (a y : Vec Ideal S5000x64 .f32) (s : Vec Ideal S5000x1 .f32) (b : Vec Ideal S64 .f32) (k : ℕ) (hk : k < 20)
    (ha : ∀ (p : Fin 5000) (q : Fin 64) (h : k * 5000 + p.val < 100000), a (ix2 p q) = A (ix2 (⟨k * 5000 + p.val, h⟩ : Fin 100000) q))
    (hy : ∀ (p : Fin 5000) (q : Fin 64) (h : k * 5000 + p.val < 100000), y (ix2 p q) = Y (ix2 (⟨k * 5000 + p.val, h⟩ : Fin 100000) q))
    (hs : ∀ (p : Fin 5000) (h : k * 5000 + p.val < 100000), s (ix2 p (0 : Fin 1)) = S (ix2 (⟨k * 5000 + p.val, h⟩ : Fin 100000) (0 : Fin 1)))
    (hb : ∀ q : Fin 64, b (ix1 q) = B (ix1 q))
    (j : S5000x64.Idx) (i : S100000x64.Idx) (hi0 : (i 0).val = k * 5000 + (j 0).val) (hi1 : (i 1).val = (j 1).val) :
    Cert.Spec.combine a y s b j = Cert.Spec.combine A Y S B i := by
  obtain ⟨p, q, rfl⟩ : ∃ (p : Fin 5000) (q : Fin 64), j = ix2 p q := ⟨j 0, j 1, eq_ix2 j⟩
  have hlt : k * 5000 + p.val < 100000 := by have := p.isLt; omega
  have hi : i = ix2 (⟨k * 5000 + p.val, hlt⟩ : Fin 100000) q :=
    (eq_ix2 i).trans (congrArg₂ (ix2 (n0 := 100000) (n1 := 64)) (Fin.ext hi0) (Fin.ext hi1))
  rw [hi]
  unfold Cert.Spec.combine
  rw [Cert.Spec.arr2_ix2, Cert.Spec.arr2_ix2, ha p q hlt, hy p q hlt, hs p hlt, hb]

/-- The zero offsets of a whole-buffer access, however spelt. -/
theorem cmb_hz : (![0, 0] : Fin 2 → Nat) = fun _ => 0 := funext fun a => by fin_cases a <;> rfl
theorem cmb_hz1 : (![0] : Fin 1 → Nat) = fun _ => 0 := funext fun a => by fin_cases a; rfl

/-! ## Region 2: the first layer's combination -/

/-- The windows' block indices over the twenty grid points: point t takes row tile t of the three row-indexed
    operands and of the result, and the whole bias. -/
theorem cmb_idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- What point t writes back is row tile t of the combination step of the whole arrays: the body stores its
    arithmetic of the four blocks it loads; a block's row y is the array's row 5000·t + y, the bias block is the bias. -/
theorem cmb_flushed2 (c : Dev nD) (t : Fin cfg2.N) :
    (Gen.dat2 (F := Ideal) V c).flushed 4 t = ((cfg2.win 4).blk t).view.read (Elt Ideal)
      (Cert.Spec.combine (V c main_v48 : S100000x64.Idx → EReal) (V c main_v35 : S100000x64.Idx → EReal)
        (V c main_v18 : S100000x1.Idx → EReal) (V c main_arg6 : S64.Idx → EReal)) := by
  show (cfg2.win 4).cut (grid2.coords t) ((Gen.dat2 V c).after 4 t) = _
  rw [Gen.after2_4]
  unfold Gen.out2_4
  rw [View.canon_unit_zero cmb_hz]
  simp only [View.ld_unit_zero (S := S5000x64) cmb_hz, View.ld_unit_zero (S := S5000x1) cmb_hz, View.ld_unit_zero (S := S64) cmb_hz1]
  obtain ⟨e00, e01, e10, e11, e20, e21, e30, e40, e41⟩ := cmb_idx2 t
  have ht : t.val < 20 := lt_of_lt_of_eq t.isLt Gen.N_2
  funext j
  show Gen.k2_pay1 (F := Ideal) (Gen.iblk2 V c 0 t) (Gen.iblk2 V c 1 t) (Gen.iblk2 V c 2 t) (Gen.iblk2 V c 3 t) j
    = Cert.Spec.combine (V c main_v48 : S100000x64.Idx → EReal) (V c main_v35 : S100000x64.Idx → EReal)
        (V c main_v18 : S100000x1.Idx → EReal) (V c main_arg6 : S64.Idx → EReal) (((cfg2.win 4).blk t).view.emb j)
  refine (congrFun (cmb_pay2 (Gen.iblk2 V c 0 t) (Gen.iblk2 V c 1 t) (Gen.iblk2 V c 2 t) (Gen.iblk2 V c 3 t)) j).trans ?_
  refine cmb_tile (V c main_v48) (V c main_v35) (V c main_v18) (V c main_arg6) (Gen.iblk2 V c 0 t) (Gen.iblk2 V c 1 t)
    (Gen.iblk2 V c 2 t) (Gen.iblk2 V c 3 t) t.val ht ?_ ?_ ?_ ?_ j (((cfg2.win 4).blk t).view.emb j) ?_ ?_
  · intro p q h
    show V c main_v48 (((cfg2.win 0).blk t).view.emb (ix2 p q)) = _
    refine congrArg (V c main_v48 : S100000x64.Idx → EReal) (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 64 + 1 * q.val = q.val; rw [e01]; omega
  · intro p q h
    show V c main_v35 (((cfg2.win 1).blk t).view.emb (ix2 p q)) = _
    refine congrArg (V c main_v35 : S100000x64.Idx → EReal) (funext fun a => Fin.ext ?_)
    match a with
    | ⟨0, _⟩ => show win2_1.index t (0 : Fin 2) * 5000 + 1 * p.val = t.val * 5000 + p.val; rw [e10]; omega
    | ⟨1, _⟩ => show win2_1.index t (1 : Fin 2) * 64 + 1 * q.val = q.val; rw [e11]; omega
  · intro p h
    show V c main_v18 (((cfg2.win 2).blk t).view.emb (ix2 p (0 : Fin 1))) = _
    refine congrArg (V c main_v18 : S100000x1.Idx → EReal) (funext fun a => Fin.ext ?_)
    match a with
    | ⟨0, _⟩ => show win2_2.index t (0 : Fin 2) * 5000 + 1 * p.val = t.val * 5000 + p.val; rw [e20]; omega
    | ⟨1, _⟩ => show win2_2.index t (1 : Fin 2) * 1 + 1 * 0 = 0; rw [e21]
  · intro q
    show V c main_arg6 (((cfg2.win 3).blk t).view.emb (ix1 q)) = _
    refine congrArg (V c main_arg6 : S64.Idx → EReal) (funext fun a => Fin.ext ?_)
    match a with
    | ⟨0, _⟩ => show win2_3.index t (0 : Fin 1) * 64 + 1 * q.val = q.val; rw [e30]; omega
  · show win2_4.index t (0 : Fin 2) * 5000 + 1 * (j 0).val = t.val * 5000 + (j 0).val; rw [e40]; omega
  · show win2_4.index t (1 : Fin 2) * 64 + 1 * (j 1).val = (j 1).val; rw [e41]; omega

/-- An entry of the result array is in point t's tile iff each coordinate is in the tile's range on its axis. -/
theorem cmb_mem_blk2 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v49).slice (win2_4.rect t)).set ↔ _
  rw [View.set_slice_whole, Rect.mem_set_unit]
  exact Iff.rfl

/-- Every entry of the result array is in some point's tile: row r in tile r / 5000. -/
theorem cmb_cover2 (i : S100000x64.Idx) :
    ∃ t : Fin cfg2.N, (cfg2.win 4).flush t = true ∧ i ∈ ((cfg2.win 4).blk t).view.set := by
  have hi0 : (i 0).val < 100000 := idx2_lt0 i
  have hi1 : (i 1).val < 64 := idx2_lt1 i
  have hN : cfg2.N = 20 := Gen.N_2
  have hq : (i 0).val / 5000 < cfg2.N := by rw [hN]; omega
  refine ⟨⟨(i 0).val / 5000, hq⟩, Gen.flush2_4 _, ?_⟩
  obtain ⟨-, -, -, -, -, -, -, e40, e41⟩ := cmb_idx2 ⟨(i 0).val / 5000, hq⟩
  rw [cmb_mem_blk2]
  intro a
  match a with
  | ⟨0, _⟩ =>
    show win2_4.index ⟨(i 0).val / 5000, hq⟩ (0 : Fin 2) * 5000 ≤ (i 0).val
      ∧ (i 0).val < win2_4.index ⟨(i 0).val / 5000, hq⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hq⟩ (1 : Fin 2) * 64 ≤ (i 1).val
      ∧ (i 1).val < win2_4.index ⟨(i 0).val / 5000, hq⟩ (1 : Fin 2) * 64 + 64
    rw [e41]; omega

/-- Region 2's result array ends holding the combination step of the arrays the region finds. -/
theorem arr2 (c : Dev nD) : (Gen.dat2 (F := Ideal) V c).arrAt 4 cfg2.N
    = Cert.Spec.combine (V c main_v48) (V c main_v35) (V c main_v18) (V c main_arg6) :=
  (Gen.dat2 (F := Ideal) V c).arrAt_eq_of_cover 4
    (Cert.Spec.combine (V c main_v48 : S100000x64.Idx → EReal) (V c main_v35 : S100000x64.Idx → EReal)
        (V c main_v18 : S100000x1.Idx → EReal) (V c main_arg6 : S64.Idx → EReal))
    (fun t _ => cmb_flushed2 V c t) cmb_cover2

/-! ## Region 4: the second layer's combination -/

/-- The windows' block indices over the twenty grid points: point t takes row tile t of the three row-indexed
    operands and of the result, and the whole bias. -/
theorem cmb_idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- What point t writes back is row tile t of the combination step of the whole arrays: the body stores its
    arithmetic of the four blocks it loads; a block's row y is the array's row 5000·t + y, the bias block is the bias. -/
theorem cmb_flushed4 (c : Dev nD) (t : Fin cfg4.N) :
    (Gen.dat4 (F := Ideal) V c).flushed 4 t = ((cfg4.win 4).blk t).view.read (Elt Ideal)
      (Cert.Spec.combine (V c main_v63 : S100000x64.Idx → EReal) (V c main_v50 : S100000x64.Idx → EReal)
        (V c main_v18 : S100000x1.Idx → EReal) (V c main_arg8 : S64.Idx → EReal)) := by
  show (cfg4.win 4).cut (grid4.coords t) ((Gen.dat4 V c).after 4 t) = _
  rw [Gen.after4_4]
  unfold Gen.out4_4
  rw [View.canon_unit_zero cmb_hz]
  simp only [View.ld_unit_zero (S := S5000x64) cmb_hz, View.ld_unit_zero (S := S5000x1) cmb_hz, View.ld_unit_zero (S := S64) cmb_hz1]
  obtain ⟨e00, e01, e10, e11, e20, e21, e30, e40, e41⟩ := cmb_idx4 t
  have ht : t.val < 20 := lt_of_lt_of_eq t.isLt Gen.N_4
  funext j
  show Gen.k4_pay1 (F := Ideal) (Gen.iblk4 V c 0 t) (Gen.iblk4 V c 1 t) (Gen.iblk4 V c 2 t) (Gen.iblk4 V c 3 t) j
    = Cert.Spec.combine (V c main_v63 : S100000x64.Idx → EReal) (V c main_v50 : S100000x64.Idx → EReal)
        (V c main_v18 : S100000x1.Idx → EReal) (V c main_arg8 : S64.Idx → EReal) (((cfg4.win 4).blk t).view.emb j)
  refine (congrFun (cmb_pay4 (Gen.iblk4 V c 0 t) (Gen.iblk4 V c 1 t) (Gen.iblk4 V c 2 t) (Gen.iblk4 V c 3 t)) j).trans ?_
  refine cmb_tile (V c main_v63) (V c main_v50) (V c main_v18) (V c main_arg8) (Gen.iblk4 V c 0 t) (Gen.iblk4 V c 1 t)
    (Gen.iblk4 V c 2 t) (Gen.iblk4 V c 3 t) t.val ht ?_ ?_ ?_ ?_ j (((cfg4.win 4).blk t).view.emb j) ?_ ?_
  · intro p q h
    show V c main_v63 (((cfg4.win 0).blk t).view.emb (ix2 p q)) = _
    refine congrArg (V c main_v63 : S100000x64.Idx → EReal) (funext fun a => Fin.ext ?_)
    match a with
    | ⟨0, _⟩ => show win4_0.index t (0 : Fin 2) * 5000 + 1 * p.val = t.val * 5000 + p.val; rw [e00]; omega
    | ⟨1, _⟩ => show win4_0.index t (1 : Fin 2) * 64 + 1 * q.val = q.val; rw [e01]; omega
  · intro p q h
    show V c main_v50 (((cfg4.win 1).blk t).view.emb (ix2 p q)) = _
    refine congrArg (V c main_v50 : S100000x64.Idx → EReal) (funext fun a => Fin.ext ?_)
    match a with
    | ⟨0, _⟩ => show win4_1.index t (0 : Fin 2) * 5000 + 1 * p.val = t.val * 5000 + p.val; rw [e10]; omega
    | ⟨1, _⟩ => show win4_1.index t (1 : Fin 2) * 64 + 1 * q.val = q.val; rw [e11]; omega
  · intro p h
    show V c main_v18 (((cfg4.win 2).blk t).view.emb (ix2 p (0 : Fin 1))) = _
    refine congrArg (V c main_v18 : S100000x1.Idx → EReal) (funext fun a => Fin.ext ?_)
    match a with
    | ⟨0, _⟩ => show win4_2.index t (0 : Fin 2) * 5000 + 1 * p.val = t.val * 5000 + p.val; rw [e20]; omega
    | ⟨1, _⟩ => show win4_2.index t (1 : Fin 2) * 1 + 1 * 0 = 0; rw [e21]
  · intro q
    show V c main_arg8 (((cfg4.win 3).blk t).view.emb (ix1 q)) = _
    refine congrArg (V c main_arg8 : S64.Idx → EReal) (funext fun a => Fin.ext ?_)
    match a with
    | ⟨0, _⟩ => show win4_3.index t (0 : Fin 1) * 64 + 1 * q.val = q.val; rw [e30]; omega
  · show win4_4.index t (0 : Fin 2) * 5000 + 1 * (j 0).val = t.val * 5000 + (j 0).val; rw [e40]; omega
  · show win4_4.index t (1 : Fin 2) * 64 + 1 * (j 1).val = (j 1).val; rw [e41]; omega

/-- An entry of the result array is in point t's tile iff each coordinate is in the tile's range on its axis. -/
theorem cmb_mem_blk4 (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v64).slice (win4_4.rect t)).set ↔ _
  rw [View.set_slice_whole, Rect.mem_set_unit]
  exact Iff.rfl

/-- Every entry of the result array is in some point's tile: row r in tile r / 5000. -/
theorem cmb_cover4 (i : S100000x64.Idx) :
    ∃ t : Fin cfg4.N, (cfg4.win 4).flush t = true ∧ i ∈ ((cfg4.win 4).blk t).view.set := by
  have hi0 : (i 0).val < 100000 := idx2_lt0 i
  have hi1 : (i 1).val < 64 := idx2_lt1 i
  have hN : cfg4.N = 20 := Gen.N_4
  have hq : (i 0).val / 5000 < cfg4.N := by rw [hN]; omega
  refine ⟨⟨(i 0).val / 5000, hq⟩, Gen.flush4_4 _, ?_⟩
  obtain ⟨-, -, -, -, -, -, -, e40, e41⟩ := cmb_idx4 ⟨(i 0).val / 5000, hq⟩
  rw [cmb_mem_blk4]
  intro a
  match a with
  | ⟨0, _⟩ =>
    show win4_4.index ⟨(i 0).val / 5000, hq⟩ (0 : Fin 2) * 5000 ≤ (i 0).val
      ∧ (i 0).val < win4_4.index ⟨(i 0).val / 5000, hq⟩ (0 : Fin 2) * 5000 + 5000
    rw [e40]; show (i 0).val / 5000 * 5000 ≤ (i 0).val ∧ (i 0).val < (i 0).val / 5000 * 5000 + 5000; omega
  | ⟨1, _⟩ =>
    show win4_4.index ⟨(i 0).val / 5000, hq⟩ (1 : Fin 2) * 64 ≤ (i 1).val
      ∧ (i 1).val < win4_4.index ⟨(i 0).val / 5000, hq⟩ (1 : Fin 2) * 64 + 64
    rw [e41]; omega

/-- Region 4's result array ends holding the combination step of the arrays the region finds. -/
theorem arr4 (c : Dev nD) : (Gen.dat4 (F := Ideal) V c).arrAt 4 cfg4.N
    = Cert.Spec.combine (V c main_v63) (V c main_v50) (V c main_v18) (V c main_arg8) :=
  (Gen.dat4 (F := Ideal) V c).arrAt_eq_of_cover 4
    (Cert.Spec.combine (V c main_v63 : S100000x64.Idx → EReal) (V c main_v50 : S100000x64.Idx → EReal)
        (V c main_v18 : S100000x1.Idx → EReal) (V c main_arg8 : S64.Idx → EReal))
    (fun t _ => cmb_flushed4 V c t) cmb_cover4

end Cert.KernelIdeal.Tile

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.LibRows.lean ====
/-
  Rows of a matrix and their flat numbering, read at an index.

  A reshape keeps every element's row-major position. So a length-(a*b) array viewed as [a, b] holds at (p, k) the
  array's entry p*b + k; an [a, b, c] array viewed as [a*b, c] holds at (p*b + k, d) the array's entry (p, k, d); a
  column [a, 1] viewed as [a] holds at i the column's entry (i, 0). And, at the extended reals, the sum of an [a, b]
  vector along its second axis (a lane reduction into [a], from the additive neutral word) is, at row r, the plain
  sum over k of the entries (r, k).
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A length-n array cast to [a, b] reads, at (p, k), the operand at the entry numbered p*b + k. -/
theorem shapeCast_n_ab_apply {n a b : ℕ} (x : (⟨1, ![n]⟩ : Shape).Idx → α) (h : (⟨1, ![n]⟩ : Shape).ShapeCasts ⟨2, ![a, b]⟩)
    (p : Fin a) (k : Fin b) (r : Fin n) (hr : r.val = p.val * b + k.val) :
    shapeCast ⟨2, ![a, b]⟩ x h (ix2 p k) = x (ix1 r) :=
  shapeCast_apply x h _ _ (by
    rw [Shape.rowMajor_val_two, Shape.rowMajor_val_one]
    exact hr)

/-- An [a, b, c] array cast to [n, c] reads, at (r, d) with r = p*b + k, the operand at (p, k, d). -/
theorem shapeCast_abc_nc_apply {n a b c : ℕ} (x : (⟨3, ![a, b, c]⟩ : Shape).Idx → α)
    (h : (⟨3, ![a, b, c]⟩ : Shape).ShapeCasts ⟨2, ![n, c]⟩)
    (p : Fin a) (k : Fin b) (d : Fin c) (r : Fin n) (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- A column [a, 1] cast to [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the extended reals the sum of an [a, b] f32 vector along axis 1, from the additive neutral word, is at row r the
    sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v ?_
  funext ax
  refine Fin.ext ?_
  match ax with
  | ⟨0, _⟩ => rfl
  | ⟨1, _⟩ => rfl

end Cert.LibRows

end
-- ==== Proof.LibWords.lean ====
/-
  The float words both programs spell, as extended reals: one half, minus infinity, zero and plus infinity.
-/
import Idealize.ShloMosaic.PureOps.Ideal
import Idealize.ShloMosaic.PureOps.Ideal.Laws

noncomputable section

namespace Cert.Attention

open Idealize.ShloMosaic

theorem half_eq : Ideal.ofBits .f32 0x3F000000#32 = ((1 / 2 : ℝ) : EReal) := by
  simp [Ideal.ofBits, Ideal.ieee, -EReal.coe_mul]; norm_num
theorem negInf_eq : Ideal.ofBits .f32 0xFF800000#32 = (⊥ : EReal) := by
  simp [Ideal.ofBits, Ideal.ieee]
theorem zero_eq : Ideal.ofBits .f32 0x00000000#32 = (0 : EReal) := by
  simp [Ideal.ofBits, Ideal.ieee]
theorem posInf_eq : Ideal.ofBits .f32 0x7F800000#32 = (⊤ : EReal) := by
  simp [Ideal.ofBits, Ideal.ieee]

/-- A real number minus itself is zero (an infinity minus itself is not). -/
theorem sub_self_real (x : EReal) (h : ∃ a : ℝ, x = (a : EReal)) : x - x = 0 := by
  obtain ⟨a, rfl⟩ := h; rw [← EReal.coe_sub, sub_self]; rfl

end Cert.Attention

end
-- ==== Proof.Head.lean ====
/-
  The classifier head, on both sides.

  The last stage of the network takes the pooled array P (one row of 64 numbers per graph) through a dense layer with a
  rectifier, a second dense layer, and a log-softmax along each row. Row by row: the scores of row p are
  z = W₂ᵀ max(W₁ᵀ P p + b₁, 0) + b₂, M is the largest of the ten scores, and the result at (p, c) is
  (z c − M) − log (∑ k, exp (z k − M)). Every entry of the result depends on row p of P only.

  Both programs compute exactly this term over the extended reals. The kernel body does it on whole blocks: two matrix
  products into zero accumulators with the biases repeated over the rows (a change of float format in between is the
  identity), the row maxima and the row sums by lane reductions, each made a column and repeated over the columns. Its
  grid has one point and every window is its whole array, so the output array after the launch is the body's value on
  the arrays as the launch finds them. The reference does it with the host's operations: two plain contractions, the
  biases as broadcast rows, the row maximum as a fold of max from minus infinity (followed by one more maximum with minus
  infinity, which changes nothing), the row sum as zero plus the sum.
-/
import proofs.«137136_j52639119179823_1_alg».proof.Proof.Gen.KernelIdeal.Frame
import proofs.«137136_j52639119179823_1_alg».proof.Proof.Gen.ReferenceIdeal.Read
import proofs.«137136_j52639119179823_1_alg».proof.Proof.Spec
import proofs.«137136_j52639119179823_1_alg».proof.Proof.LibLayer
import proofs.«137136_j52639119179823_1_alg».proof.Proof.LibDenseLayers
import proofs.«137136_j52639119179823_1_alg».proof.Proof.LibRowReduce
import proofs.«137136_j52639119179823_1_alg».proof.Proof.LibRows
import proofs.«137136_j52639119179823_1_alg».proof.Proof.LibLayout
import proofs.«137136_j52639119179823_1_alg».proof.Proof.LibWords
import Idealize.ShloMosaic.Lib.Pipeline.Value
import Idealize.ShloMosaic.Lib.ValueIdx
import Idealize.ShloMosaic.PureOps.Ideal.Laws

set_option maxRecDepth 16384

noncomputable section

open scoped BigOperators

/-! # The head as a function of whole arrays -/

namespace Cert.Spec

open Cert.Layer
open Idealize.ShloMosaic Idealize.ShloMosaic.ValueIdx

variable {k h d : ℕ}

/-- The largest of d extended reals (minus infinity when there are none). -/
def rowMax (z : Fin d → EReal) : EReal := (Finset.univ : Finset (Fin d)).fold max ⊥ z

/-- The logarithm of the softmax of d numbers, taken about their maximum M:
    (z c − M) − log (∑ j, exp (z j − M)). -/
def logSoftmax (z : Fin d → EReal) (c : Fin d) : EReal :=
  (z c - rowMax z) - Ideal.log (∑ j : Fin d, Ideal.exp (z j - rowMax z))

/-- The classifier's scores of one pooled row: a dense layer, the rectifier, a second dense layer. -/
def logits (x : Fin k → EReal) (W₁ : Fin k → Fin h → EReal) (b₁ : Fin h → EReal) (W₂ : Fin h → Fin d → EReal)
    (b₂ : Fin d → EReal) : Fin d → EReal :=
  lin (fun j => max (lin x W₁ b₁ j) 0) W₂ b₂

/-- The classifier head, row by row: the log-softmax of each pooled row's scores. -/
def head (P : (⟨2, ![128, 64]⟩ : Shape).Idx → EReal) (Wf1 : (⟨2, ![64, 32]⟩ : Shape).Idx → EReal)
    (bf1 : (⟨1, ![32]⟩ : Shape).Idx → EReal) (Wf2 : (⟨2, ![32, 10]⟩ : Shape).Idx → EReal)
    (bf2 : (⟨1, ![10]⟩ : Shape).Idx → EReal) : (⟨2, ![128, 10]⟩ : Shape).Idx → EReal :=
  arr2 fun p c => logSoftmax (logits (rows P p) (mat Wf1) (vec bf1) (mat Wf2) (vec bf2)) c

/-- The head at (p, c). -/
theorem head_ix2 (P : (⟨2, ![128, 64]⟩ : Shape).Idx → EReal) (Wf1 : (⟨2, ![64, 32]⟩ : Shape).Idx → EReal)
    (bf1 : (⟨1, ![32]⟩ : Shape).Idx → EReal) (Wf2 : (⟨2, ![32, 10]⟩ : Shape).Idx → EReal)
    (bf2 : (⟨1, ![10]⟩ : Shape).Idx → EReal) (p : Fin 128) (c : Fin 10) :
    head P Wf1 bf1 Wf2 bf2 (ix2 p c) = logSoftmax (logits (rows P p) (mat Wf1) (vec bf1) (mat Wf2) (vec bf2)) c := rfl

end Cert.Spec

/-! # The kernel's side -/

namespace Cert.KernelIdeal.Head

open Cert.KernelIdeal Cert.KernelIdeal.Gen Cert.Layer Cert.Spec
open Idealize.ShloMosaic Idealize.ShloMosaic.ValueIdx Idealize.ShloMosaic.TcCoe Idealize.SL.Sem
open Idealize.ShloMosaic.Pipeline (Dat)

section Tail

variable {n d : ℕ}

/-- A row maximum taken by a lane reduction, made a column and repeated over the columns, reads at (p, q) the
    largest entry of row p. -/
theorem maxCol_apply (Z : FVec Ideal ⟨2, ![n, d]⟩ .f32) (hr : (⟨2, ![n, d]⟩ : Shape).Reduces [1] ⟨1, ![n]⟩)
    (hφ : FKind.Formats .f32) (hmax : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, d]⟩)
    (p : Fin n) (q : Fin d) :
    broadcastTo ⟨2, ![n, d]⟩ (shapeCast ⟨2, ![n, 1]⟩ (multiReduction .maximumf [1] ⟨1, ![n]⟩ Z 0xFF800000#32 hr hφ hmax) hc) hb
        (ix2 p q)
      = rowMax (fun j => Z (ix2 p j)) := by
  refine (Cert.LibLayout.broadcastTo_a1_ab_apply _ hb p q).trans ?_
  refine (Cert.LibLayout.shapeCast_a_a1_apply _ hc p 0).trans ?_
  refine (Cert.LibRowReduce.rowMax_apply Z _ hr hφ hmax p).trans ?_
  unfold rowMax
  rw [Cert.Attention.negInf_eq]

/-- The tail of a log-softmax: when B reads the number m all along row p, (Z − B) minus the logarithm (made a column
    and repeated) of the row sums of exp (Z − B) is, at (p, c), (Z (p, c) − m) − log (∑ k, exp (Z (p, k) − m)). -/
theorem tail_apply (Z B : FVec Ideal ⟨2, ![n, d]⟩ .f32) (hr : (⟨2, ![n, d]⟩ : Shape).Reduces [1] ⟨1, ![n]⟩)
    (hφ : FKind.Formats .f32) (hadd : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩)
    (p : Fin n) (m : EReal) (hB : ∀ q : Fin d, B (ix2 p q) = m) (c : Fin d) :
    subf (subf Z B) (broadcastTo ⟨2, ![n, d]⟩ (log (shapeCast ⟨2, ![n, 1]⟩
        (multiReduction .add [1] ⟨1, ![n]⟩ (exp (subf Z B)) 0x00000000#32 hr hφ hadd) hc)) hb) (ix2 p c)
      = (Z (ix2 p c) - m) - Ideal.log (∑ k : Fin d, Ideal.exp (Z (ix2 p k) - m)) := by
  rw [subf_apply, subf_apply, hB c, Cert.LibLayout.broadcastTo_a1_ab_apply]
  show _ - Ideal.log (shapeCast ⟨2, ![n, 1]⟩ _ hc (ix2 p 0)) = _
  rw [Cert.LibLayout.shapeCast_a_a1_apply, Cert.LibRows.rowSum_apply]
  refine congrArg (fun s => (Z (ix2 p c) - m) - Ideal.log s) (Finset.sum_congr rfl fun k _ => ?_)
  show Ideal.exp (Z (ix2 p k) - B (ix2 p k)) = _
  rw [hB k]

/-- A log-softmax as the body takes it — the row maxima by a lane reduction, subtracted; the exponentials' row sums by a
    lane reduction, their logarithm subtracted — is, at (p, c), the log-softmax of row p. -/
theorem softmaxTail_apply (Z : FVec Ideal ⟨2, ![n, d]⟩ .f32) (hr : (⟨2, ![n, d]⟩ : Shape).Reduces [1] ⟨1, ![n]⟩)
    (hφ : FKind.Formats .f32) (hmax : (0xFF800000#32 : BitVec 32) = FKind.maximumf.neutral .f32 hφ)
    (hadd : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩)
    (p : Fin n) (c : Fin d) :
    subf (subf Z (broadcastTo ⟨2, ![n, d]⟩ (shapeCast ⟨2, ![n, 1]⟩
          (multiReduction .maximumf [1] ⟨1, ![n]⟩ Z 0xFF800000#32 hr hφ hmax) hc) hb))
        (broadcastTo ⟨2, ![n, d]⟩ (log (shapeCast ⟨2, ![n, 1]⟩
          (multiReduction .add [1] ⟨1, ![n]⟩ (exp (subf Z (broadcastTo ⟨2, ![n, d]⟩ (shapeCast ⟨2, ![n, 1]⟩
            (multiReduction .maximumf [1] ⟨1, ![n]⟩ Z 0xFF800000#32 hr hφ hmax) hc) hb))) 0x00000000#32 hr hφ hadd) hc)) hb)
        (ix2 p c)
      = logSoftmax (fun j => Z (ix2 p j)) c :=
  tail_apply Z _ hr hφ hadd hc hb p _ (fun q => maxCol_apply Z hr hφ hmax hc hb p q) c

end Tail

/-- The two products' dimension numbers are the plain rows × inner by inner × columns ones. -/
theorem plain1 : dot_S128x64_S64x32_S128x32_1_0_0_1_n_n = DotDims.plain 128 64 32 := rfl
theorem plain2 : dot_S128x32_S32x10_S128x10_1_0_0_1_n_n = DotDims.plain 128 32 10 := rfl

/-- The kernel body's arithmetic at (p, c): the log-softmax of row p's scores. -/
theorem k5_pay1_apply (v0 : Vec Ideal S128x64 .f32) (v3 : Vec Ideal S64x32 .f32) (v6 : Vec Ideal S32 .f32)
    (v13 : Vec Ideal S32x10 .f32) (v16 : Vec Ideal S10 .f32) (p : Fin 128) (c : Fin 10) :
    k5_pay1 (F := Ideal) v0 v3 v6 v13 v16 (ix2 p c)
      = logSoftmax (logits (rows v0 p) (mat v3) (vec v6) (mat v13) (vec v16)) c := by
  unfold k5_pay1
  refine (softmaxTail_apply _ reduces_S128x10_S128 (.inl rfl) rfl rfl shapeCasts_S128_S128x1 broadcasts_S128x1_S128x10
    p c).trans ?_
  refine congrArg (fun z => logSoftmax z c) (funext fun j => ?_)
  refine (Cert.LibDenseLayers.mlp_apply (fun y => max y 0) id _ plain1 _ plain2 none none
    (truncf .bf16 (shapeCast S128x64 v0 shapeCasts_S128x64_S128x64) bitsLt_bf16_f32 : FVec Ideal S128x64 .bf16)
    (truncf .bf16 v3 bitsLt_bf16_f32 : FVec Ideal S64x32 .bf16) v6 shapeCasts_S32_S1x32
    broadcasts_S1x32_S128x32 _ (fun p q => ?_) _ v16 shapeCasts_S10_S1x10 broadcasts_S1x10_S128x10 p j).trans ?_
  · show max _ (Ideal.ofBits .f32 0x00000000#32) = max _ 0
    rw [Ideal.ofBits_zero_f32]
  · have hX : rows (truncf .bf16 (shapeCast S128x64 v0 shapeCasts_S128x64_S128x64) bitsLt_bf16_f32 :
        FVec Ideal S128x64 .bf16) p = rows v0 p :=
      funext fun q => congrFun (shapeCast_self v0 shapeCasts_S128x64_S128x64) (ix2 p q)
    exact congrArg (fun x => logits x (mat v3) (vec v6) (mat v13) (vec v16) j) hX

/-- The body's arithmetic is the classifier head of the blocks it loads. -/
theorem k5_pay1_eq (v0 : Vec Ideal S128x64 .f32) (v3 : Vec Ideal S64x32 .f32) (v6 : Vec Ideal S32 .f32)
    (v13 : Vec Ideal S32x10 .f32) (v16 : Vec Ideal S10 .f32) :
    k5_pay1 (F := Ideal) v0 v3 v6 v13 v16 = head v0 v3 v6 v13 v16 :=
  ext2 fun p c => k5_pay1_apply v0 v3 v6 v13 v16 p c

/-- Zero offsets, however they are spelt. -/
theorem hz2 : (![0, 0] : Fin 2 → Nat) = fun _ => 0 := funext fun a => by fin_cases a <;> rfl
theorem hz1 : (![0] : Fin 1 → Nat) = fun _ => 0 := funext fun a => by fin_cases a; rfl

/-- What the body leaves in the output's staging buffer: the head of the five input buffers. -/
theorem out5_5_eq (x0 : Vec Ideal S128x64 .f32) (x1 : Vec Ideal S64x32 .f32) (x2 : Vec Ideal S32 .f32)
    (x3 : Vec Ideal S32x10 .f32) (x4 : Vec Ideal S10 .f32) :
    out5_5 (F := Ideal) x0 x1 x2 x3 x4 = head x0 x1 x2 x3 x4 := by
  unfold out5_5
  rw [View.canon_unit_zero hz2]
  simp only [View.ld_unit_zero (S := S128x64) hz2, View.ld_unit_zero (S := S64x32) hz2, View.ld_unit_zero (S := S32) hz1,
    View.ld_unit_zero (S := S32x10) hz2, View.ld_unit_zero (S := S10) hz1]
  exact k5_pay1_eq x0 x1 x2 x3 x4

section Array

variable (V : (c : Dev nD) → (b : Ref sig .tc) → Buf (Elt Ideal) ((c : Thread nD τ).loc b))

/-! The grid has one point and every window's block is its whole array at offset zero, so the block a window reads at
    the point is the array as the launch finds it. -/

theorem iblk5_0 (c : Dev nD) (t : Fin cfg5.N) : (iblk5 V c 0 t : Vec Ideal S128x64 .f32) = V c main_v76 := by
  obtain rfl : t = t5_0 := fin_N5 t
  have hz' : (fun a => win5_0.index t5_0 a * main_v76.ty.shape.size a) = fun _ => 0 :=
    funext fun a => by fin_cases a <;> decide
  exact Memref.read_access_unit_zero (Elt Ideal) main_v76 hz' (fun a => by rw [congrFun hz' a]; simp) (V c main_v76)

theorem iblk5_1 (c : Dev nD) (t : Fin cfg5.N) : (iblk5 V c 1 t : Vec Ideal S64x32 .f32) = V c main_arg9 := by
  obtain rfl : t = t5_0 := fin_N5 t
  have hz' : (fun a => win5_1.index t5_0 a * main_arg9.ty.shape.size a) = fun _ => 0 :=
    funext fun a => by fin_cases a <;> decide
  exact Memref.read_access_unit_zero (Elt Ideal) main_arg9 hz' (fun a => by rw [congrFun hz' a]; simp) (V c main_arg9)

theorem iblk5_2 (c : Dev nD) (t : Fin cfg5.N) : (iblk5 V c 2 t : Vec Ideal S32 .f32) = V c main_arg10 := by
  obtain rfl : t = t5_0 := fin_N5 t
  have hz' : (fun a => win5_2.index t5_0 a * main_arg10.ty.shape.size a) = fun _ => 0 :=
    funext fun a => by fin_cases a; decide
  exact Memref.read_access_unit_zero (Elt Ideal) main_arg10 hz' (fun a => by rw [congrFun hz' a]; simp) (V c main_arg10)

theorem iblk5_3 (c : Dev nD) (t : Fin cfg5.N) : (iblk5 V c 3 t : Vec Ideal S32x10 .f32) = V c main_arg11 := by
  obtain rfl : t = t5_0 := fin_N5 t
  have hz' : (fun a => win5_3.index t5_0 a * main_arg11.ty.shape.size a) = fun _ => 0 :=
    funext fun a => by fin_cases a <;> decide
  exact Memref.read_access_unit_zero (Elt Ideal) main_arg11 hz' (fun a => by rw [congrFun hz' a]; simp) (V c main_arg11)

theorem iblk5_4 (c : Dev nD) (t : Fin cfg5.N) : (iblk5 V c 4 t : Vec Ideal S10 .f32) = V c main_arg12 := by
  obtain rfl : t = t5_0 := fin_N5 t
  have hz' : (fun a => win5_4.index t5_0 a * main_arg12.ty.shape.size a) = fun _ => 0 :=
    funext fun a => by fin_cases a; decide
  exact Memref.read_access_unit_zero (Elt Ideal) main_arg12 hz' (fun a => by rw [congrFun hz' a]; simp) (V c main_arg12)

/-- What the one point writes back is the head of the five arrays, read through the output's whole-array block. -/
theorem flushed_eq (c : Dev nD) (t : Fin cfg5.N) :
    (dat5 (F := Ideal) V c).flushed 5 t = ((cfg5.win 5).blk t).view.read (Elt Ideal)
      (head (V c main_v76) (V c main_arg9) (V c main_arg10) (V c main_arg11) (V c main_arg12)) := by
  show (cfg5.win 5).cut (grid5.coords t) ((dat5 V c).after 5 t) = _
  rw [after5_5, out5_5_eq, iblk5_0, iblk5_1, iblk5_2, iblk5_3, iblk5_4]
  obtain rfl : t = t5_0 := fin_N5 t
  have hz' : (fun a => win5_5.index t5_0 a * main_v77.ty.shape.size a) = fun _ => 0 :=
    funext fun a => by fin_cases a <;> decide
  exact (Memref.read_access_unit_zero (Elt Ideal) main_v77 hz' (fun a => by rw [congrFun hz' a]; simp) _).symm

/-- The output array after the launch: the classifier head of the pooled array and the four weight arrays as the launch
    finds them. -/
theorem arr5 (c : Dev nD) :
    (Gen.dat5 (F := Ideal) V c).arrAt 5 cfg5.N
      = Cert.Spec.head (V c main_v76) (V c main_arg9) (V c main_arg10) (V c main_arg11) (V c main_arg12) :=
  (dat5 (F := Ideal) V c).arrAt_eq_of_cover 5 _ (fun t _ => flushed_eq V c t) fun i =>
    ⟨t5_0, flush5_5 t5_0, by
      show i ∈ ((View.whole main_v77).slice (win5_5.rect t5_0)).set
      rw [View.set_slice_whole, Rect.mem_set_unit]
      intro a
      have h0 : (i 0 : Nat) < 128 := (i 0).isLt
      have h1 : (i 1 : Nat) < 10 := (i 1).isLt
      match a with
      | ⟨0, _⟩ =>
        show win5_5.index t5_0 0 * win5_5.size 0 ≤ (i 0 : Nat)
          ∧ (i 0 : Nat) < win5_5.index t5_0 0 * win5_5.size 0 + win5_5.xsize (grid5.coords t5_0) 0
        rw [show win5_5.index t5_0 0 * win5_5.size 0 = 0 from by decide +kernel,
          show win5_5.xsize (grid5.coords t5_0) 0 = 128 from by decide +kernel]
        omega
      | ⟨1, _⟩ =>
        show win5_5.index t5_0 1 * win5_5.size 1 ≤ (i 1 : Nat)
          ∧ (i 1 : Nat) < win5_5.index t5_0 1 * win5_5.size 1 + win5_5.xsize (grid5.coords t5_0) 1
        rw [show win5_5.index t5_0 1 * win5_5.size 1 = 0 from by decide +kernel,
          show win5_5.xsize (grid5.coords t5_0) 1 = 10 from by decide +kernel]
        omega⟩

end Array

end Cert.KernelIdeal.Head

/-! # The reference's side -/

namespace Cert.ReferenceIdeal.Head

open Cert.ReferenceIdeal Cert.ReferenceIdeal.Gen Cert.ReferenceIdeal.Read Cert.Layer Cert.Spec
open Idealize.ShloMosaic Idealize.ShloMosaic.ValueIdx

/-! The index maps the reference's stages are read through, at coordinates. -/

theorem lidx110 (p : Fin 128) (k : Fin 32) (r : Fin 64) : lidx_main_v110 (ix2 p k) r = ix2 p r :=
  funext fun a => Fin.ext (by match a with | ⟨0, _⟩ => rfl | ⟨1, _⟩ => rfl)
theorem ridx110 (p : Fin 128) (k : Fin 32) (r : Fin 64) : ridx_main_v110 (ix2 p k) r = ix2 r k :=
  funext fun a => Fin.ext (by match a with | ⟨0, _⟩ => rfl | ⟨1, _⟩ => rfl)
theorem idx112 (p : Fin 128) (k : Fin 32) : idx_main_v111 (idx_main_v112 (ix2 p k)) = ix1 k :=
  funext fun a => Fin.ext (by match a with | ⟨0, _⟩ => rfl)
theorem lidx115 (p : Fin 128) (j : Fin 10) (k : Fin 32) : lidx_main_v115 (ix2 p j) k = ix2 p k :=
  funext fun a => Fin.ext (by match a with | ⟨0, _⟩ => rfl | ⟨1, _⟩ => rfl)
theorem ridx115 (p : Fin 128) (j : Fin 10) (k : Fin 32) : ridx_main_v115 (ix2 p j) k = ix2 k j :=
  funext fun a => Fin.ext (by match a with | ⟨0, _⟩ => rfl | ⟨1, _⟩ => rfl)
theorem idx117 (p : Fin 128) (j : Fin 10) : idx_main_v116 (idx_main_v117 (ix2 p j)) = ix1 j :=
  funext fun a => Fin.ext (by match a with | ⟨0, _⟩ => rfl)
theorem idxc34 (p : Fin 128) (j : Fin 10) : idx_main_call4_v3 (idx_main_call4_v4 (ix2 p j)) = ix1 p :=
  funext fun a => Fin.ext (by match a with | ⟨0, _⟩ => rfl)
theorem idxc810 (p : Fin 128) (j : Fin 10) : idx_main_call4_v8 (idx_main_call4_v10 (ix2 p j)) = ix1 p :=
  funext fun a => Fin.ext (by match a with | ⟨0, _⟩ => rfl)
theorem idxc7 (p : Fin 128) (k : Fin 10) : idx_main_call4_v7 (ix1 p) k = ix2 p k :=
  funext fun a => Fin.ext (by match a with | ⟨0, _⟩ => rfl | ⟨1, _⟩ => rfl)

/-- The first dense layer and the rectifier, at (p, k). -/
theorem v114_at (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (p : Fin 128) (k : Fin 32) :
    val_main_v114 (F := Ideal) x0 x1 x2 x3 x4 x5 x6 x7 x8 x9 x10 (ix2 p k)
      = max (lin (rows (val_main_v109 (F := Ideal) x0 x1 x2 x3 x4 x5 x6 x7 x8) p) (mat x9) (vec x10) k) 0 := by
  rw [val_main_v114_apply, val_main_v113_apply, val_main_v110_apply, val_main_v112_apply, val_main_v111_apply,
    val_main_call3_v0_apply, val_main_call3_cst_apply, idx112]
  simp only [lidx110, ridx110]
  show max _ (Ideal.ofBits .f32 0x00000000#32) = _
  rw [Ideal.ofBits_zero_f32]
  rfl

/-- The scores, at (p, j). -/
theorem v118_at (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x10, .f32⟩ : BufTy).Contents (Elt Ideal)) (x12 : (⟨S10, .f32⟩ : BufTy).Contents (Elt Ideal)) (p : Fin 128) (j : Fin 10) :
    val_main_v118 (F := Ideal) x0 x1 x2 x3 x4 x5 x6 x7 x8 x9 x10 x11 x12 (ix2 p j)
      = logits (rows (val_main_v109 (F := Ideal) x0 x1 x2 x3 x4 x5 x6 x7 x8) p) (mat x9) (vec x10) (mat x11) (vec x12) j := by
  rw [val_main_v118_apply, val_main_v115_apply, val_main_v117_apply, val_main_v116_apply, idx117]
  simp only [lidx115, ridx115, v114_at]
  rfl

/-- The row maximum: the host's fold of max from minus infinity, then a maximum with minus infinity again. -/
theorem rowMax_at (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x10, .f32⟩ : BufTy).Contents (Elt Ideal)) (x12 : (⟨S10, .f32⟩ : BufTy).Contents (Elt Ideal)) (p : Fin 128) :
    val_main_call4_v2 (F := Ideal) x0 x1 x2 x3 x4 x5 x6 x7 x8 x9 x10 x11 x12 (ix1 p)
      = rowMax (fun j => val_main_v118 (F := Ideal) x0 x1 x2 x3 x4 x5 x6 x7 x8 x9 x10 x11 x12 (ix2 p j)) := by
  rw [val_main_call4_v2_apply, val_main_call4_v1_apply, val_main_call4_cst_0_apply]
  show max (Ideal.ofBits .f32 0xFF800000#32) _ = _
  rw [Cert.LibRowReduce.max_negInf_left]
  unfold val_main_call4_v0
  refine (Cert.LibRowReduce.hostRowMax_apply _ _ reducesTo_S128x10_S128_d1 (by decide) h_S_ p).trans ?_
  unfold rowMax
  rw [val_main_call4_cst_apply]
  show Finset.fold max (Ideal.ofBits .f32 0xFF800000#32) _ _ = _
  rw [Cert.Attention.negInf_eq]

/-- The scores less their row maximum, at (p, k). -/
theorem shifted_at (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x10, .f32⟩ : BufTy).Contents (Elt Ideal)) (x12 : (⟨S10, .f32⟩ : BufTy).Contents (Elt Ideal)) (p : Fin 128) (k : Fin 10) :
    val_main_call4_v5 (F := Ideal) x0 x1 x2 x3 x4 x5 x6 x7 x8 x9 x10 x11 x12 (ix2 p k)
      = val_main_v118 (F := Ideal) x0 x1 x2 x3 x4 x5 x6 x7 x8 x9 x10 x11 x12 (ix2 p k) - rowMax (fun j => val_main_v118 (F := Ideal) x0 x1 x2 x3 x4 x5 x6 x7 x8 x9 x10 x11 x12 (ix2 p j)) := by
  rw [val_main_call4_v5_apply, val_main_call4_v4_apply, val_main_call4_v3_apply, idxc34, rowMax_at]
  rfl

/-- The reference's result at (p, c): the log-softmax of row p of its scores. -/
theorem v119_at (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x10, .f32⟩ : BufTy).Contents (Elt Ideal)) (x12 : (⟨S10, .f32⟩ : BufTy).Contents (Elt Ideal)) (p : Fin 128) (c : Fin 10) :
    val_main_v119 (F := Ideal) x0 x1 x2 x3 x4 x5 x6 x7 x8 x9 x10 x11 x12 (ix2 p c)
      = logSoftmax (fun j => val_main_v118 (F := Ideal) x0 x1 x2 x3 x4 x5 x6 x7 x8 x9 x10 x11 x12 (ix2 p j)) c := by
  rw [val_main_v119_apply]
  rw [val_main_call4_v10_apply, val_main_call4_v9_apply, val_main_call4_v8_apply, idxc810]
  rw [val_main_call4_v7_apply, val_main_call4_cst_1_apply]
  simp only [idxc7, val_main_call4_v6_apply, shifted_at]
  simp only [Ideal.subf_def, Ideal.hostUnary_log_def, Ideal.hostUnary_exp_def, Ideal.ofBits_def, Ideal.ofBits_zero_f32, zero_add]
  rfl

/-- The reference's result is the classifier head of the pooled array it computes. -/
theorem v119_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x10, .f32⟩ : BufTy).Contents (Elt Ideal)) (x12 : (⟨S10, .f32⟩ : BufTy).Contents (Elt Ideal)) :
    Read.val_main_v119 (F := Ideal) x0 x1 x2 x3 x4 x5 x6 x7 x8 x9 x10 x11 x12
      = Cert.Spec.head (Read.val_main_v109 (F := Ideal) x0 x1 x2 x3 x4 x5 x6 x7 x8) x9 x10 x11 x12 :=
  Cert.Spec.ext2 fun p c => (v119_at x0 x1 x2 x3 x4 x5 x6 x7 x8 x9 x10 x11 x12 p c).trans
    (congrArg (fun z => logSoftmax z c) (funext fun j => v118_at x0 x1 x2 x3 x4 x5 x6 x7 x8 x9 x10 x11 x12 p j))

end Cert.ReferenceIdeal.Head

end
-- ==== Proof.Chain.lean ====
/-
  The idealized kernel's buffers, boundary by boundary, as the reference's stages.

  @main is four stretches of host operations and six kernel launches. The host operations are the reference's own
  (the edge lists with the reversed edges appended, the degrees by a scatter-add of ones, their inverse roots, the
  edge weights by two gathers and a product, each convolution's messages by a gather, a product and a scatter-add, the
  mean over each graph by two scatter-adds and a quotient): run from the same inputs they give the same arrays, term
  for term. Each launch leaves in its output array the layer function of its input arrays (the dense layer with the
  rectifier, the matrix product, the combination step, the classifier head), which is what the reference's
  corresponding operations compute from the same arrays. So, boundary by boundary, every buffer a later segment reads
  holds the reference's stage of the same name: the argument arrays pass every segment untouched, the edge lists, edge
  weights and self-loop column pass the launches that do not write them, and the last launch's output is the
  reference's result as a function of the thirteen arguments.
-/
import proofs.«137136_j52639119179823_1_alg».proof.Proof.Gen.KernelIdeal.Frame
import proofs.«137136_j52639119179823_1_alg».proof.Proof.Gen.ReferenceIdeal.Read
import proofs.«137136_j52639119179823_1_alg».proof.Proof.LibLayout
import proofs.«137136_j52639119179823_1_alg».proof.Proof.Spec
import proofs.«137136_j52639119179823_1_alg».proof.Proof.RefStages
import proofs.«137136_j52639119179823_1_alg».proof.Proof.TileDense
import proofs.«137136_j52639119179823_1_alg».proof.Proof.TileCombine
import proofs.«137136_j52639119179823_1_alg».proof.Proof.Head
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch of host operations: the edge lists, the edge weights, the self-loop column -/
theorem W1_arg0 : W1 m ρ c (Proc.devRef .tc main_arg0) = (m ((c : Thread nD τ).loc main_arg0)) := (by show StableHlo.after hostOps0 (W0 m ρ c) _ = _; simp only [hostOps0]; after_results_simp <;> rfl)
theorem W1_arg2 : W1 m ρ c (Proc.devRef .tc main_arg2) = (m ((c : Thread nD τ).loc main_arg2)) := (by show StableHlo.after hostOps0 (W0 m ρ c) _ = _; simp only [hostOps0]; after_results_simp <;> rfl)
theorem W1_arg3 : W1 m ρ c (Proc.devRef .tc main_arg3) = (m ((c : Thread nD τ).loc main_arg3)) := (by show StableHlo.after hostOps0 (W0 m ρ c) _ = _; simp only [hostOps0]; after_results_simp <;> rfl)
theorem W1_arg4 : W1 m ρ c (Proc.devRef .tc main_arg4) = (m ((c : Thread nD τ).loc main_arg4)) := (by show StableHlo.after hostOps0 (W0 m ρ c) _ = _; simp only [hostOps0]; after_results_simp <;> rfl)
theorem W1_arg5 : W1 m ρ c (Proc.devRef .tc main_arg5) = (m ((c : Thread nD τ).loc main_arg5)) := (by show StableHlo.after hostOps0 (W0 m ρ c) _ = _; simp only [hostOps0]; after_results_simp <;> rfl)
theorem W1_arg6 : W1 m ρ c (Proc.devRef .tc main_arg6) = (m ((c : Thread nD τ).loc main_arg6)) := (by show StableHlo.after hostOps0 (W0 m ρ c) _ = _; simp only [hostOps0]; after_results_simp <;> rfl)
theorem W1_arg7 : W1 m ρ c (Proc.devRef .tc main_arg7) = (m ((c : Thread nD τ).loc main_arg7)) := (by show StableHlo.after hostOps0 (W0 m ρ c) _ = _; simp only [hostOps0]; after_results_simp <;> rfl)
theorem W1_arg8 : W1 m ρ c (Proc.devRef .tc main_arg8) = (m ((c : Thread nD τ).loc main_arg8)) := (by show StableHlo.after hostOps0 (W0 m ρ c) _ = _; simp only [hostOps0]; after_results_simp <;> rfl)
theorem W1_arg9 : W1 m ρ c (Proc.devRef .tc main_arg9) = (m ((c : Thread nD τ).loc main_arg9)) := (by show StableHlo.after hostOps0 (W0 m ρ c) _ = _; simp only [hostOps0]; after_results_simp <;> rfl)
theorem W1_arg10 : W1 m ρ c (Proc.devRef .tc main_arg10) = (m ((c : Thread nD τ).loc main_arg10)) := (by show StableHlo.after hostOps0 (W0 m ρ c) _ = _; simp only [hostOps0]; after_results_simp <;> rfl)
theorem W1_arg11 : W1 m ρ c (Proc.devRef .tc main_arg11) = (m ((c : Thread nD τ).loc main_arg11)) := (by show StableHlo.after hostOps0 (W0 m ρ c) _ = _; simp only [hostOps0]; after_results_simp <;> rfl)
theorem W1_arg12 : W1 m ρ c (Proc.devRef .tc main_arg12) = (m ((c : Thread nD τ).loc main_arg12)) := (by show StableHlo.after hostOps0 (W0 m ρ c) _ = _; simp only [hostOps0]; after_results_simp <;> rfl)
set_option maxHeartbeats 1000000 in
theorem W1_v4 : W1 m ρ c (Proc.devRef .tc main_v4) = Cert.ReferenceIdeal.Read.val_main_v4 (F := Ideal) (m ((c : Thread nD τ).loc main_arg1)) := by
  show StableHlo.after hostOps0 (W0 m ρ c) _ = _
  simp only [hostOps0]
  after_results_simp
  rfl
set_option maxHeartbeats 1000000 in
theorem W1_v9 : W1 m ρ c (Proc.devRef .tc main_v9) = Cert.ReferenceIdeal.Read.val_main_v9 (F := Ideal) (m ((c : Thread nD τ).loc main_arg1)) := by
  show StableHlo.after hostOps0 (W0 m ρ c) _ = _
  simp only [hostOps0]
  after_results_simp
  rfl
set_option maxHeartbeats 1000000 in
theorem W1_v33 : W1 m ρ c (Proc.devRef .tc main_v33) = Cert.ReferenceIdeal.Read.val_main_v37 (F := Ideal) (m ((c : Thread nD τ).loc main_arg1)) := by
  show StableHlo.after hostOps0 (W0 m ρ c) _ = _
  simp only [hostOps0]
  after_results_simp
  rfl
set_option maxHeartbeats 1000000 in
/-- The self-loop column: the kernel reshapes the vector of squared inverse root degrees to a column, the reference
    broadcasts it to one; the two columns are one array. -/
theorem W1_v18 : W1 m ρ c (Proc.devRef .tc main_v18) = Cert.ReferenceIdeal.Read.val_main_v52 (F := Ideal) (m ((c : Thread nD τ).loc main_arg1)) := by
  have h : W1 m ρ c (Proc.devRef .tc main_v18) = shapeCast S100000x1 (Cert.ReferenceIdeal.Read.val_main_v51 (F := Ideal) (m ((c : Thread nD τ).loc main_arg1))) shapeCasts_S100000_S100000x1 := by
    show StableHlo.after hostOps0 (W0 m ρ c) _ = _
    simp only [hostOps0]
    after_results_simp
    rfl
  rw [h]
  exact Cert.LibLayout.shapeCast_eq_broadcastInDim_col _ _ _

/-! ## After region 0: the input layer -/
theorem W2_arg2 : W2 m ρ c (Proc.devRef .tc main_arg2) = (m ((c : Thread nD τ).loc main_arg2)) := (W2_of_ne m ρ c main_arg2 (by decide)).trans (W1_arg2 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)
theorem W2_arg10 : W2 m ρ c (Proc.devRef .tc main_arg10) = (m ((c : Thread nD τ).loc main_arg10)) := (W2_of_ne m ρ c main_arg10 (by decide)).trans (W1_arg10 m ρ c)
theorem W2_arg11 : W2 m ρ c (Proc.devRef .tc main_arg11) = (m ((c : Thread nD τ).loc main_arg11)) := (W2_of_ne m ρ c main_arg11 (by decide)).trans (W1_arg11 m ρ c)
theorem W2_arg12 : W2 m ρ c (Proc.devRef .tc main_arg12) = (m ((c : Thread nD τ).loc main_arg12)) := (W2_of_ne m ρ c main_arg12 (by decide)).trans (W1_arg12 m ρ c)
theorem W2_v4 : W2 m ρ c (Proc.devRef .tc main_v4) = Cert.ReferenceIdeal.Read.val_main_v4 (F := Ideal) (m ((c : Thread nD τ).loc main_arg1)) := (W2_of_ne m ρ c main_v4 (by decide)).trans (W1_v4 m ρ c)
theorem W2_v9 : W2 m ρ c (Proc.devRef .tc main_v9) = Cert.ReferenceIdeal.Read.val_main_v9 (F := Ideal) (m ((c : Thread nD τ).loc main_arg1)) := (W2_of_ne m ρ c main_v9 (by decide)).trans (W1_v9 m ρ c)
theorem W2_v33 : W2 m ρ c (Proc.devRef .tc main_v33) = Cert.ReferenceIdeal.Read.val_main_v37 (F := Ideal) (m ((c : Thread nD τ).loc main_arg1)) := (W2_of_ne m ρ c main_v33 (by decide)).trans (W1_v33 m ρ c)
theorem W2_v18 : W2 m ρ c (Proc.devRef .tc main_v18) = Cert.ReferenceIdeal.Read.val_main_v52 (F := Ideal) (m ((c : Thread nD τ).loc main_arg1)) := (W2_of_ne m ρ c main_v18 (by decide)).trans (W1_v18 m ρ c)
theorem W2_v34 : W2 m ρ c (Proc.devRef .tc main_v34) = Cert.ReferenceIdeal.Read.val_main_v21 (F := Ideal) (m ((c : Thread nD τ).loc main_arg0)) (m ((c : Thread nD τ).loc main_arg3)) (m ((c : Thread nD τ).loc main_arg4)) := by
  refine (W2_arr m ρ c 3).trans ?_
  rw [Cert.KernelIdeal.Tile.arr0 (V1 m ρ) c]
  dsimp only [V1]
  rw [W1_arg0 m ρ c, W1_arg3 m ρ c, W1_arg4 m ρ c]
  exact (Cert.ReferenceIdeal.Stages.v21_eq _ _ _).symm

/-! ## After region 1: the first convolution's projected features -/
theorem W3_arg2 : W3 m ρ c (Proc.devRef .tc main_arg2) = (m ((c : Thread nD τ).loc main_arg2)) := (W3_of_ne m ρ c main_arg2 (by decide)).trans (W2_arg2 m ρ c)
theorem W3_arg6 : W3 m ρ c (Proc.devRef .tc main_arg6) = (m ((c : Thread nD τ).loc main_arg6)) := (W3_of_ne m ρ c main_arg6 (by decide)).trans (W2_arg6 m ρ c)
theorem W3_arg7 : W3 m ρ c (Proc.devRef .tc main_arg7) = (m ((c : Thread nD τ).loc main_arg7)) := (W3_of_ne m ρ c main_arg7 (by decide)).trans (W2_arg7 m ρ c)
theorem W3_arg8 : W3 m ρ c (Proc.devRef .tc main_arg8) = (m ((c : Thread nD τ).loc main_arg8)) := (W3_of_ne m ρ c main_arg8 (by decide)).trans (W2_arg8 m ρ c)
theorem W3_arg9 : W3 m ρ c (Proc.devRef .tc main_arg9) = (m ((c : Thread nD τ).loc main_arg9)) := (W3_of_ne m ρ c main_arg9 (by decide)).trans (W2_arg9 m ρ c)
theorem W3_arg10 : W3 m ρ c (Proc.devRef .tc main_arg10) = (m ((c : Thread nD τ).loc main_arg10)) := (W3_of_ne m ρ c main_arg10 (by decide)).trans (W2_arg10 m ρ c)
theorem W3_arg11 : W3 m ρ c (Proc.devRef .tc main_arg11) = (m ((c : Thread nD τ).loc main_arg11)) := (W3_of_ne m ρ c main_arg11 (by decide)).trans (W2_arg11 m ρ c)
theorem W3_arg12 : W3 m ρ c (Proc.devRef .tc main_arg12) = (m ((c : Thread nD τ).loc main_arg12)) := (W3_of_ne m ρ c main_arg12 (by decide)).trans (W2_arg12 m ρ c)
theorem W3_v4 : W3 m ρ c (Proc.devRef .tc main_v4) = Cert.ReferenceIdeal.Read.val_main_v4 (F := Ideal) (m ((c : Thread nD τ).loc main_arg1)) := (W3_of_ne m ρ c main_v4 (by decide)).trans (W2_v4 m ρ c)
theorem W3_v9 : W3 m ρ c (Proc.devRef .tc main_v9) = Cert.ReferenceIdeal.Read.val_main_v9 (F := Ideal) (m ((c : Thread nD τ).loc main_arg1)) := (W3_of_ne m ρ c main_v9 (by decide)).trans (W2_v9 m ρ c)
theorem W3_v33 : W3 m ρ c (Proc.devRef .tc main_v33) = Cert.ReferenceIdeal.Read.val_main_v37 (F := Ideal) (m ((c : Thread nD τ).loc main_arg1)) := (W3_of_ne m ρ c main_v33 (by decide)).trans (W2_v33 m ρ c)
theorem W3_v18 : W3 m ρ c (Proc.devRef .tc main_v18) = Cert.ReferenceIdeal.Read.val_main_v52 (F := Ideal) (m ((c : Thread nD τ).loc main_arg1)) := (W3_of_ne m ρ c main_v18 (by decide)).trans (W2_v18 m ρ c)
theorem W3_v35 : W3 m ρ c (Proc.devRef .tc main_v35) = Cert.ReferenceIdeal.Read.val_main_v22 (F := Ideal) (m ((c : Thread nD τ).loc main_arg0)) (m ((c : Thread nD τ).loc main_arg3)) (m ((c : Thread nD τ).loc main_arg4)) (m ((c : Thread nD τ).loc main_arg5)) := by
  refine (W3_arr m ρ c 2).trans ?_
  rw [Cert.KernelIdeal.Tile.arr1 (V2 m ρ) c]
  dsimp only [V2]
  rw [W2_v34 m ρ c, W2_arg5 m ρ c]
  exact (Cert.ReferenceIdeal.Stages.v22_eq _ _ _ _).symm

/-! ## After the second stretch of host operations: the first convolution's aggregated messages -/
theorem W4_arg2 : W4 m ρ c (Proc.devRef .tc main_arg2) = (m ((c : Thread nD τ).loc main_arg2)) := ((by show StableHlo.after hostOps2 (W3 m ρ c) _ = _; simp only [hostOps2]; after_results_simp <;> rfl) : W4 m ρ c (Proc.devRef .tc main_arg2) = W3 m ρ c (Proc.devRef .tc main_arg2)).trans (W3_arg2 m ρ c)
theorem W4_arg6 : W4 m ρ c (Proc.devRef .tc main_arg6) = (m ((c : Thread nD τ).loc main_arg6)) := ((by show StableHlo.after hostOps2 (W3 m ρ c) _ = _; simp only [hostOps2]; after_results_simp <;> rfl) : W4 m ρ c (Proc.devRef .tc main_arg6) = W3 m ρ c (Proc.devRef .tc main_arg6)).trans (W3_arg6 m ρ c)
theorem W4_arg7 : W4 m ρ c (Proc.devRef .tc main_arg7) = (m ((c : Thread nD τ).loc main_arg7)) := ((by show StableHlo.after hostOps2 (W3 m ρ c) _ = _; simp only [hostOps2]; after_results_simp <;> rfl) : W4 m ρ c (Proc.devRef .tc main_arg7) = W3 m ρ c (Proc.devRef .tc main_arg7)).trans (W3_arg7 m ρ c)
theorem W4_arg8 : W4 m ρ c (Proc.devRef .tc main_arg8) = (m ((c : Thread nD τ).loc main_arg8)) := ((by show StableHlo.after hostOps2 (W3 m ρ c) _ = _; simp only [hostOps2]; after_results_simp <;> rfl) : W4 m ρ c (Proc.devRef .tc main_arg8) = W3 m ρ c (Proc.devRef .tc main_arg8)).trans (W3_arg8 m ρ c)
theorem W4_arg9 : W4 m ρ c (Proc.devRef .tc main_arg9) = (m ((c : Thread nD τ).loc main_arg9)) := ((by show StableHlo.after hostOps2 (W3 m ρ c) _ = _; simp only [hostOps2]; after_results_simp <;> rfl) : W4 m ρ c (Proc.devRef .tc main_arg9) = W3 m ρ c (Proc.devRef .tc main_arg9)).trans (W3_arg9 m ρ c)
theorem W4_arg10 : W4 m ρ c (Proc.devRef .tc main_arg10) = (m ((c : Thread nD τ).loc main_arg10)) := ((by show StableHlo.after hostOps2 (W3 m ρ c) _ = _; simp only [hostOps2]; after_results_simp <;> rfl) : W4 m ρ c (Proc.devRef .tc main_arg10) = W3 m ρ c (Proc.devRef .tc main_arg10)).trans (W3_arg10 m ρ c)
theorem W4_arg11 : W4 m ρ c (Proc.devRef .tc main_arg11) = (m ((c : Thread nD τ).loc main_arg11)) := ((by show StableHlo.after hostOps2 (W3 m ρ c) _ = _; simp only [hostOps2]; after_results_simp <;> rfl) : W4 m ρ c (Proc.devRef .tc main_arg11) = W3 m ρ c (Proc.devRef .tc main_arg11)).trans (W3_arg11 m ρ c)
theorem W4_arg12 : W4 m ρ c (Proc.devRef .tc main_arg12) = (m ((c : Thread nD τ).loc main_arg12)) := ((by show StableHlo.after hostOps2 (W3 m ρ c) _ = _; simp only [hostOps2]; after_results_simp <;> rfl) : W4 m ρ c (Proc.devRef .tc main_arg12) = W3 m ρ c (Proc.devRef .tc main_arg12)).trans (W3_arg12 m ρ c)
theorem W4_v4 : W4 m ρ c (Proc.devRef .tc main_v4) = Cert.ReferenceIdeal.Read.val_main_v4 (F := Ideal) (m ((c : Thread nD τ).loc main_arg1)) := ((by show StableHlo.after hostOps2 (W3 m ρ c) _ = _; simp only [hostOps2]; after_results_simp <;> rfl) : W4 m ρ c (Proc.devRef .tc main_v4) = W3 m ρ c (Proc.devRef .tc main_v4)).trans (W3_v4 m ρ c)
theorem W4_v9 : W4 m ρ c (Proc.devRef .tc main_v9) = Cert.ReferenceIdeal.Read.val_main_v9 (F := Ideal) (m ((c : Thread nD τ).loc main_arg1)) := ((by show StableHlo.after hostOps2 (W3 m ρ c) _ = _; simp only [hostOps2]; after_results_simp <;> rfl) : W4 m ρ c (Proc.devRef .tc main_v9) = W3 m ρ c (Proc.devRef .tc main_v9)).trans (W3_v9 m ρ c)
theorem W4_v33 : W4 m ρ c (Proc.devRef .tc main_v33) = Cert.ReferenceIdeal.Read.val_main_v37 (F := Ideal) (m ((c : Thread nD τ).loc main_arg1)) := ((by show StableHlo.after hostOps2 (W3 m ρ c) _ = _; simp only [hostOps2]; after_results_simp <;> rfl) : W4 m ρ c (Proc.devRef .tc main_v33) = W3 m ρ c (Proc.devRef .tc main_v33)).trans (W3_v33 m ρ c)
theorem W4_v18 : W4 m ρ c (Proc.devRef .tc main_v18) = Cert.ReferenceIdeal.Read.val_main_v52 (F := Ideal) (m ((c : Thread nD τ).loc main_arg1)) := ((by show StableHlo.after hostOps2 (W3 m ρ c) _ = _; simp only [hostOps2]; after_results_simp <;> rfl) : W4 m ρ c (Proc.devRef .tc main_v18) = W3 m ρ c (Proc.devRef .tc main_v18)).trans (W3_v18 m ρ c)
theorem W4_v35 : W4 m ρ c (Proc.devRef .tc main_v35) = Cert.ReferenceIdeal.Read.val_main_v22 (F := Ideal) (m ((c : Thread nD τ).loc main_arg0)) (m ((c : Thread nD τ).loc main_arg3)) (m ((c : Thread nD τ).loc main_arg4)) (m ((c : Thread nD τ).loc main_arg5)) := ((by show StableHlo.after hostOps2 (W3 m ρ c) _ = _; simp only [hostOps2]; after_results_simp <;> rfl) : W4 m ρ c (Proc.devRef .tc main_v35) = W3 m ρ c (Proc.devRef .tc main_v35)).trans (W3_v35 m ρ c)
set_option maxHeartbeats 1000000 in
theorem W4_v48 : W4 m ρ c (Proc.devRef .tc main_v48) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W3 m ρ c) _ = _
  simp only [hostOps2]
  after_results_simp
  rw [W3_v4 m ρ c, W3_v9 m ρ c, W3_v33 m ρ c, W3_v35 m ρ c]
  rfl

/-! ## After region 2: the first convolution -/
theorem W5_arg2 : W5 m ρ c (Proc.devRef .tc main_arg2) = (m ((c : Thread nD τ).loc main_arg2)) := (W5_of_ne m ρ c main_arg2 (by decide)).trans (W4_arg2 m ρ c)
theorem W5_arg7 : W5 m ρ c (Proc.devRef .tc main_arg7) = (m ((c : Thread nD τ).loc main_arg7)) := (W5_of_ne m ρ c main_arg7 (by decide)).trans (W4_arg7 m ρ c)
theorem W5_arg8 : W5 m ρ c (Proc.devRef .tc main_arg8) = (m ((c : Thread nD τ).loc main_arg8)) := (W5_of_ne m ρ c main_arg8 (by decide)).trans (W4_arg8 m ρ c)
theorem W5_arg9 : W5 m ρ c (Proc.devRef .tc main_arg9) = (m ((c : Thread nD τ).loc main_arg9)) := (W5_of_ne m ρ c main_arg9 (by decide)).trans (W4_arg9 m ρ c)
theorem W5_arg10 : W5 m ρ c (Proc.devRef .tc main_arg10) = (m ((c : Thread nD τ).loc main_arg10)) := (W5_of_ne m ρ c main_arg10 (by decide)).trans (W4_arg10 m ρ c)
theorem W5_arg11 : W5 m ρ c (Proc.devRef .tc main_arg11) = (m ((c : Thread nD τ).loc main_arg11)) := (W5_of_ne m ρ c main_arg11 (by decide)).trans (W4_arg11 m ρ c)
theorem W5_arg12 : W5 m ρ c (Proc.devRef .tc main_arg12) = (m ((c : Thread nD τ).loc main_arg12)) := (W5_of_ne m ρ c main_arg12 (by decide)).trans (W4_arg12 m ρ c)
theorem W5_v4 : W5 m ρ c (Proc.devRef .tc main_v4) = Cert.ReferenceIdeal.Read.val_main_v4 (F := Ideal) (m ((c : Thread nD τ).loc main_arg1)) := (W5_of_ne m ρ c main_v4 (by decide)).trans (W4_v4 m ρ c)
theorem W5_v9 : W5 m ρ c (Proc.devRef .tc main_v9) = Cert.ReferenceIdeal.Read.val_main_v9 (F := Ideal) (m ((c : Thread nD τ).loc main_arg1)) := (W5_of_ne m ρ c main_v9 (by decide)).trans (W4_v9 m ρ c)
theorem W5_v33 : W5 m ρ c (Proc.devRef .tc main_v33) = Cert.ReferenceIdeal.Read.val_main_v37 (F := Ideal) (m ((c : Thread nD τ).loc main_arg1)) := (W5_of_ne m ρ c main_v33 (by decide)).trans (W4_v33 m ρ c)
theorem W5_v18 : W5 m ρ c (Proc.devRef .tc main_v18) = Cert.ReferenceIdeal.Read.val_main_v52 (F := Ideal) (m ((c : Thread nD τ).loc main_arg1)) := ((W5_arr m ρ c 2).trans (((dat2 (V4 m ρ) c).arrAt_in 2 rfl _).trans (A_eq2 (V4 m ρ) c 2))).trans (W4_v18 m ρ c)
theorem W5_v49 : W5 m ρ c (Proc.devRef .tc main_v49) = Cert.ReferenceIdeal.Read.val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W5_arr m ρ c 4).trans ?_
  rw [Cert.KernelIdeal.Tile.arr2 (V4 m ρ) c]
  dsimp only [V4]
  rw [W4_v48 m ρ c, W4_v35 m ρ c, W4_v18 m ρ c, W4_arg6 m ρ c]
  exact (Cert.ReferenceIdeal.Stages.v59_eq _ _ _ _ _ _).symm

/-! ## After region 3: the second convolution's projected features -/
theorem W6_arg2 : W6 m ρ c (Proc.devRef .tc main_arg2) = (m ((c : Thread nD τ).loc main_arg2)) := (W6_of_ne m ρ c main_arg2 (by decide)).trans (W5_arg2 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)
theorem W6_arg10 : W6 m ρ c (Proc.devRef .tc main_arg10) = (m ((c : Thread nD τ).loc main_arg10)) := (W6_of_ne m ρ c main_arg10 (by decide)).trans (W5_arg10 m ρ c)
theorem W6_arg11 : W6 m ρ c (Proc.devRef .tc main_arg11) = (m ((c : Thread nD τ).loc main_arg11)) := (W6_of_ne m ρ c main_arg11 (by decide)).trans (W5_arg11 m ρ c)
theorem W6_arg12 : W6 m ρ c (Proc.devRef .tc main_arg12) = (m ((c : Thread nD τ).loc main_arg12)) := (W6_of_ne m ρ c main_arg12 (by decide)).trans (W5_arg12 m ρ c)
theorem W6_v4 : W6 m ρ c (Proc.devRef .tc main_v4) = Cert.ReferenceIdeal.Read.val_main_v4 (F := Ideal) (m ((c : Thread nD τ).loc main_arg1)) := (W6_of_ne m ρ c main_v4 (by decide)).trans (W5_v4 m ρ c)
theorem W6_v9 : W6 m ρ c (Proc.devRef .tc main_v9) = Cert.ReferenceIdeal.Read.val_main_v9 (F := Ideal) (m ((c : Thread nD τ).loc main_arg1)) := (W6_of_ne m ρ c main_v9 (by decide)).trans (W5_v9 m ρ c)
theorem W6_v33 : W6 m ρ c (Proc.devRef .tc main_v33) = Cert.ReferenceIdeal.Read.val_main_v37 (F := Ideal) (m ((c : Thread nD τ).loc main_arg1)) := (W6_of_ne m ρ c main_v33 (by decide)).trans (W5_v33 m ρ c)
theorem W6_v18 : W6 m ρ c (Proc.devRef .tc main_v18) = Cert.ReferenceIdeal.Read.val_main_v52 (F := Ideal) (m ((c : Thread nD τ).loc main_arg1)) := (W6_of_ne m ρ c main_v18 (by decide)).trans (W5_v18 m ρ c)
theorem W6_v50 : W6 m ρ c (Proc.devRef .tc main_v50) = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ?_
  rw [Cert.KernelIdeal.Tile.arr3 (V5 m ρ) c]
  dsimp only [V5]
  rw [W5_v49 m ρ c, W5_arg7 m ρ c]
  exact (Cert.ReferenceIdeal.Stages.v60_eq _ _ _ _ _ _ _).symm

/-! ## After the third stretch of host operations: the second convolution's aggregated messages -/
theorem W7_arg2 : W7 m ρ c (Proc.devRef .tc main_arg2) = (m ((c : Thread nD τ).loc main_arg2)) := ((by show StableHlo.after hostOps4 (W6 m ρ c) _ = _; simp only [hostOps4]; after_results_simp <;> rfl) : W7 m ρ c (Proc.devRef .tc main_arg2) = W6 m ρ c (Proc.devRef .tc main_arg2)).trans (W6_arg2 m ρ c)
theorem W7_arg8 : W7 m ρ c (Proc.devRef .tc main_arg8) = (m ((c : Thread nD τ).loc main_arg8)) := ((by show StableHlo.after hostOps4 (W6 m ρ c) _ = _; simp only [hostOps4]; after_results_simp <;> rfl) : W7 m ρ c (Proc.devRef .tc main_arg8) = W6 m ρ c (Proc.devRef .tc main_arg8)).trans (W6_arg8 m ρ c)
theorem W7_arg9 : W7 m ρ c (Proc.devRef .tc main_arg9) = (m ((c : Thread nD τ).loc main_arg9)) := ((by show StableHlo.after hostOps4 (W6 m ρ c) _ = _; simp only [hostOps4]; after_results_simp <;> rfl) : W7 m ρ c (Proc.devRef .tc main_arg9) = W6 m ρ c (Proc.devRef .tc main_arg9)).trans (W6_arg9 m ρ c)
theorem W7_arg10 : W7 m ρ c (Proc.devRef .tc main_arg10) = (m ((c : Thread nD τ).loc main_arg10)) := ((by show StableHlo.after hostOps4 (W6 m ρ c) _ = _; simp only [hostOps4]; after_results_simp <;> rfl) : W7 m ρ c (Proc.devRef .tc main_arg10) = W6 m ρ c (Proc.devRef .tc main_arg10)).trans (W6_arg10 m ρ c)
theorem W7_arg11 : W7 m ρ c (Proc.devRef .tc main_arg11) = (m ((c : Thread nD τ).loc main_arg11)) := ((by show StableHlo.after hostOps4 (W6 m ρ c) _ = _; simp only [hostOps4]; after_results_simp <;> rfl) : W7 m ρ c (Proc.devRef .tc main_arg11) = W6 m ρ c (Proc.devRef .tc main_arg11)).trans (W6_arg11 m ρ c)
theorem W7_arg12 : W7 m ρ c (Proc.devRef .tc main_arg12) = (m ((c : Thread nD τ).loc main_arg12)) := ((by show StableHlo.after hostOps4 (W6 m ρ c) _ = _; simp only [hostOps4]; after_results_simp <;> rfl) : W7 m ρ c (Proc.devRef .tc main_arg12) = W6 m ρ c (Proc.devRef .tc main_arg12)).trans (W6_arg12 m ρ c)
theorem W7_v18 : W7 m ρ c (Proc.devRef .tc main_v18) = Cert.ReferenceIdeal.Read.val_main_v52 (F := Ideal) (m ((c : Thread nD τ).loc main_arg1)) := ((by show StableHlo.after hostOps4 (W6 m ρ c) _ = _; simp only [hostOps4]; after_results_simp <;> rfl) : W7 m ρ c (Proc.devRef .tc main_v18) = W6 m ρ c (Proc.devRef .tc main_v18)).trans (W6_v18 m ρ c)
theorem W7_v50 : W7 m ρ c (Proc.devRef .tc main_v50) = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := ((by show StableHlo.after hostOps4 (W6 m ρ c) _ = _; simp only [hostOps4]; after_results_simp <;> rfl) : W7 m ρ c (Proc.devRef .tc main_v50) = W6 m ρ c (Proc.devRef .tc main_v50)).trans (W6_v50 m ρ c)
set_option maxHeartbeats 1000000 in
theorem W7_v63 : W7 m ρ c (Proc.devRef .tc main_v63) = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W6 m ρ c) _ = _
  simp only [hostOps4]
  after_results_simp
  rw [W6_v4 m ρ c, W6_v9 m ρ c, W6_v33 m ρ c, W6_v50 m ρ c]
  rfl

/-! ## After region 4: the second convolution -/
theorem W8_arg2 : W8 m ρ c (Proc.devRef .tc main_arg2) = (m ((c : Thread nD τ).loc main_arg2)) := (W8_of_ne m ρ c main_arg2 (by decide)).trans (W7_arg2 m ρ c)
theorem W8_arg9 : W8 m ρ c (Proc.devRef .tc main_arg9) = (m ((c : Thread nD τ).loc main_arg9)) := (W8_of_ne m ρ c main_arg9 (by decide)).trans (W7_arg9 m ρ c)
theorem W8_arg10 : W8 m ρ c (Proc.devRef .tc main_arg10) = (m ((c : Thread nD τ).loc main_arg10)) := (W8_of_ne m ρ c main_arg10 (by decide)).trans (W7_arg10 m ρ c)
theorem W8_arg11 : W8 m ρ c (Proc.devRef .tc main_arg11) = (m ((c : Thread nD τ).loc main_arg11)) := (W8_of_ne m ρ c main_arg11 (by decide)).trans (W7_arg11 m ρ c)
theorem W8_arg12 : W8 m ρ c (Proc.devRef .tc main_arg12) = (m ((c : Thread nD τ).loc main_arg12)) := (W8_of_ne m ρ c main_arg12 (by decide)).trans (W7_arg12 m ρ c)
/-- The second convolution's self-loop column is the first's: both are the squared inverse root degrees as a column. -/
theorem v90_eq_v52 : Cert.ReferenceIdeal.Read.val_main_v90 (F := Ideal) (m ((c : Thread nD τ).loc main_arg1)) = Cert.ReferenceIdeal.Read.val_main_v52 (F := Ideal) (m ((c : Thread nD τ).loc main_arg1)) := rfl
theorem W8_v64 : W8 m ρ c (Proc.devRef .tc main_v64) = Cert.ReferenceIdeal.Read.val_main_v97 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 4).trans ?_
  rw [Cert.KernelIdeal.Tile.arr4 (V7 m ρ) c]
  dsimp only [V7]
  rw [W7_v63 m ρ c, W7_v50 m ρ c, W7_v18 m ρ c, W7_arg8 m ρ c, ← v90_eq_v52 m c]
  exact (Cert.ReferenceIdeal.Stages.v97_eq _ _ _ _ _ _ _ _).symm

/-! ## After the last stretch of host operations: the mean over each graph's nodes -/
theorem W9_arg9 : W9 m ρ c (Proc.devRef .tc main_arg9) = (m ((c : Thread nD τ).loc main_arg9)) := ((by show StableHlo.after hostOps5 (W8 m ρ c) _ = _; simp only [hostOps5]; after_results_simp <;> rfl) : W9 m ρ c (Proc.devRef .tc main_arg9) = W8 m ρ c (Proc.devRef .tc main_arg9)).trans (W8_arg9 m ρ c)
theorem W9_arg10 : W9 m ρ c (Proc.devRef .tc main_arg10) = (m ((c : Thread nD τ).loc main_arg10)) := ((by show StableHlo.after hostOps5 (W8 m ρ c) _ = _; simp only [hostOps5]; after_results_simp <;> rfl) : W9 m ρ c (Proc.devRef .tc main_arg10) = W8 m ρ c (Proc.devRef .tc main_arg10)).trans (W8_arg10 m ρ c)
theorem W9_arg11 : W9 m ρ c (Proc.devRef .tc main_arg11) = (m ((c : Thread nD τ).loc main_arg11)) := ((by show StableHlo.after hostOps5 (W8 m ρ c) _ = _; simp only [hostOps5]; after_results_simp <;> rfl) : W9 m ρ c (Proc.devRef .tc main_arg11) = W8 m ρ c (Proc.devRef .tc main_arg11)).trans (W8_arg11 m ρ c)
theorem W9_arg12 : W9 m ρ c (Proc.devRef .tc main_arg12) = (m ((c : Thread nD τ).loc main_arg12)) := ((by show StableHlo.after hostOps5 (W8 m ρ c) _ = _; simp only [hostOps5]; after_results_simp <;> rfl) : W9 m ρ c (Proc.devRef .tc main_arg12) = W8 m ρ c (Proc.devRef .tc main_arg12)).trans (W8_arg12 m ρ c)
set_option maxHeartbeats 1000000 in
theorem W9_v76 : W9 m ρ c (Proc.devRef .tc main_v76) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W8 m ρ c) _ = _
  simp only [hostOps5]
  after_results_simp
  rw [W8_v64 m ρ c, W8_arg2 m ρ c]
  rfl

/-! ## After region 5: the result -/
/-- The idealized kernel's result is the reference's last stage, as a function of the argument arrays. -/
theorem W10_v77 : W10 m ρ c (Proc.devRef .tc main_v77) = Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 5).trans ?_
  rw [Cert.KernelIdeal.Head.arr5 (V9 m ρ) c]
  dsimp only [V9]
  rw [W9_v76 m ρ c, W9_arg9 m ρ c, W9_arg10 m ρ c, W9_arg11 m ρ c, W9_arg12 m ρ c]
  exact (Cert.ReferenceIdeal.Head.v119_eq _ _ _ _ _ _ _ _ _ _ _ _ _).symm

end Cert.KernelIdeal.Chain

end
-- ==== Proof.lean ====
/-
  A two-layer graph convolution network with a mean-pool classifier head, as a Pallas kernel program and as a plain
  jax.numpy reference, are one function of their thirteen arguments over the extended reals.

  Both programs build, by the same host operations, the undirected edge lists, each node's degree with its self loop,
  the inverse root degrees and the edge weights. The input layer relu(x · W_in + b_in), each convolution's projection
  h · W and its combination step relu(agg + (h · W) · s + b) (s the squared inverse root degree, the self-loop weight)
  are Pallas launches over tiles of 5000 rows in one program and whole-array host operations in the other; every entry
  of these layers depends on one row of the row-indexed operands, so the tiles put together are the whole-array
  result, a matrix product into the zero accumulator being the plain sum over the inner axis and the narrowing of
  floats the identity. The messages' gather, product with the edge weights and scatter-add, and the mean over each
  graph's nodes, are the same host operations in both programs. The classifier head (two dense layers and a
  log-softmax: each row minus its maximum, minus the logarithm of the sum of the exponentials) is one launch on the
  whole pooled array against the reference's host operations. No law of arithmetic beyond reading each sum where it
  is written joins the two programs, so the precondition (finite inputs) is not used.

  The modules: Spec (the layers as functions of whole arrays), TileDense and TileCombine (each tiled launch leaves the
  layer function of its input arrays), Head (the classifier head, in the launch and in the reference), RefStages (the
  reference's layer stages are the layer functions), ValueRun (the kernel's run with its result named), Chain (the
  kernel's buffers, boundary by boundary, are the reference's stages), and the claims here.
-/
import proofs.«137136_j52639119179823_1_alg».proof.Defs
import proofs.«137136_j52639119179823_1_alg».proof.Proof.Gen.Kernel
import proofs.«137136_j52639119179823_1_alg».proof.Proof.Gen.Kernel.Skeleton
import proofs.«137136_j52639119179823_1_alg».proof.Proof.Gen.Kernel.Launch
import proofs.«137136_j52639119179823_1_alg».proof.Proof.Gen.Kernel.Points
import proofs.«137136_j52639119179823_1_alg».proof.Proof.Gen.Kernel.Frame
import proofs.«137136_j52639119179823_1_alg».proof.Proof.Gen.KernelIdeal
import proofs.«137136_j52639119179823_1_alg».proof.Proof.Gen.KernelIdeal.Skeleton
import proofs.«137136_j52639119179823_1_alg».proof.Proof.Gen.KernelIdeal.Launch
import proofs.«137136_j52639119179823_1_alg».proof.Proof.Gen.KernelIdeal.Points
import proofs.«137136_j52639119179823_1_alg».proof.Proof.Gen.KernelIdeal.Frame
import proofs.«137136_j52639119179823_1_alg».proof.Proof.Gen.ReferenceIdeal
import proofs.«137136_j52639119179823_1_alg».proof.Proof.Gen.Pre_finite_inputs
import proofs.«137136_j52639119179823_1_alg».proof.Proof.Gen.ReferenceIdeal.Run
import proofs.«137136_j52639119179823_1_alg».proof.Proof.Gen.ReferenceIdeal.Read
import proofs.«137136_j52639119179823_1_alg».proof.Proof.ValueRun
import proofs.«137136_j52639119179823_1_alg».proof.Proof.Chain
import Idealize.ShloMosaic.Adequacy
import Idealize.ShloMosaic.Init

noncomputable section

namespace Cert.Proof

open Idealize.ShloMosaic Idealize.SL.Sem

/-- The printed kernel runs and keeps its arguments: the generated frame of its six launches and four host stretches. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Run from memories that agree on the thirteen arguments, the idealized kernel ends with its result buffer at the
    last boundary's contents, which is the reference's last stage as a function of the arguments, and the reference
    ends with its result at that stage of its own arguments: equal arrays. -/
theorem algebraic : Cert.algebraic_KernelIdeal_ReferenceIdeal := by
  intro m ρ m' ρ' _ hagree
  refine ⟨fun c => Cert.KernelIdeal.Gen.W10 m ρ c (Proc.devRef .tc Cert.KernelIdeal.main_v77),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v119_eq]
  obtain ⟨h0, h1, h2, h3, h4, h5, h6, h7, h8, h9, h10, h11, h12⟩ := hagree c
  rw [h0, h1, h2, h3, h4, h5, h6, h7, h8, h9, h10, h11, h12]
  exact (Cert.KernelIdeal.Chain.W10_v77 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
